-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S64x1 .f32) (main_arg7 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x64 : Shape := ⟨2, ![1, 64]⟩
abbrev S1x1 : Shape := ⟨2, ![1, 1]⟩
abbrev S10000x64 : Shape := ⟨2, ![10000, 64]⟩
abbrev S400x10000 : Shape := ⟨2, ![400, 10000]⟩
abbrev S400x64 : Shape := ⟨2, ![400, 64]⟩
abbrev S10000x1 : Shape := ⟨2, ![10000, 1]⟩
abbrev S400x1 : Shape := ⟨2, ![400, 1]⟩

abbrev nBuf : Space → Nat
  | .hbm => 13
  | .vmem => 17
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x64, .f32⟩
  | .hbm, ⟨9, _⟩ => ⟨S1x64, .f32⟩
  | .hbm, ⟨10, _⟩ => ⟨S1x1, .f32⟩
  | .hbm, ⟨11, _⟩ => ⟨S10000x64, .f32⟩
  | .hbm, ⟨12, _⟩ => ⟨S10000x1, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x64, .f32⟩
  | .local _ .vmem, ⟨4, _⟩ => ⟨S1x64, .f32⟩
  | .local _ .vmem, ⟨5, _⟩ => ⟨S64x64, .f32⟩
  | .local _ .vmem, ⟨6, _⟩ => ⟨S400x64, .f32⟩
  | .local _ .vmem, ⟨7, _⟩ => ⟨S400x64, .f32⟩
  | .local _ .vmem, ⟨8, _⟩ => ⟨S10000x64, .bf16⟩
  | .local _ .vmem, ⟨9, _⟩ => ⟨S400x10000, .f32⟩
  | .local _ .vmem, ⟨10, _⟩ => ⟨S400x10000, .f32⟩
  | .local _ .vmem, ⟨11, _⟩ => ⟨S10000x64, .f32⟩
  | .local _ .vmem, ⟨12, _⟩ => ⟨S1x64, .f32⟩
  | .local _ .vmem, ⟨13, _⟩ => ⟨S64x1, .f32⟩
  | .local _ .vmem, ⟨14, _⟩ => ⟨S1x1, .f32⟩
  | .local _ .vmem, ⟨15, _⟩ => ⟨S400x1, .f32⟩
  | .local _ .vmem, ⟨16, _⟩ => ⟨S400x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S64_S1x64 : S64.ShapeCasts S1x64
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  packedbf16_S10000x64_S10000x64_0_0 : (Rect.unit (s := S10000x64) ![0, 0] S10000x64.size inb_S10000x64_S10000x64_0_0).PackedRows (EltTy.packing .bf16)
  inb_S400x10000_S400x10000_0_0 : ∀ a, (![0, 0] : Fin 2 → Nat) a + S400x10000.size a ≤ S400x10000.size a
  h_S400x10000 : 0 < S400x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x64_S64x64_0_0 : ∀ a, (![0, 0] : Fin 2 → Nat) a + S64x64.size a ≤ S64x64.size a
  h_S64x64 : 0 < S64x64.numel
  inb_S400x64_S400x64_0_0 : ∀ a, (![0, 0] : Fin 2 → Nat) a + S400x64.size a ≤ S400x64.size a
  h_S400x64 : 0 < S400x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S400x1 : S1x1.Broadcasts S400x1
  inb_S400x1_S400x1_0_0 : ∀ a, (![0, 0] : Fin 2 → Nat) a + S400x1.size a ≤ S400x1.size a
  h_S400x1 : 0 < S400x1.numel
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x64_S400x64_1_0_0_1_n_n_wf : DotDims.WF S400x64 S64x64 S400x64 [1] [0] [0] [1] [] []
  dot_S400x64_S64x1_S400x1_1_0_0_1_n_n_wf : DotDims.WF S400x64 S64x1 S400x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x64.size a ≤ S10000x64.size a
  hwx0_5 : ∀ i : grid0.Coords, EltTy.bits .f32 = 32 ∨ (Rect.block (s := S10000x64) S400x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x1.size a ≤ S10000x1.size a
  hwx1_5 : ∀ i : grid1.Coords, EltTy.bits .f32 = 32 ∨ (Rect.block (s := S10000x1) S400x1.size (cc1_transform_5 i) (hinb1_5 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf
def dot_S400x64_S64x1_S400x1_1_0_0_1_n_n : DotDims S400x64 S64x1 S400x1 where
  lhsContracting := [1]
  rhsContracting := [0]
  lhsNonContracting := [0]
  rhsNonContracting := [1]
  lhsBatch := []
  rhsBatch := []
  wf := dot_S400x64_S64x1_S400x1_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S400x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S400x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S10000x64 : Shape := ⟨2, ![10000, 64]⟩
abbrev S1x64 : Shape := ⟨2, ![1, 64]⟩
abbrev S_ : Shape := ⟨0, ![]⟩
abbrev S10000x1 : Shape := ⟨2, ![10000, 1]⟩
abbrev S1x1 : Shape := ⟨2, ![1, 1]⟩

abbrev nBuf : Space → Nat
  | .hbm => 28
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S10000x64, .f32⟩
  | .hbm, ⟨9, _⟩ => ⟨S10000x64, .f32⟩
  | .hbm, ⟨10, _⟩ => ⟨S1x64, .f32⟩
  | .hbm, ⟨11, _⟩ => ⟨S10000x64, .f32⟩
  | .hbm, ⟨12, _⟩ => ⟨S10000x64, .f32⟩
  | .hbm, ⟨13, _⟩ => ⟨S_, .f32⟩
  | .hbm, ⟨14, _⟩ => ⟨S10000x64, .f32⟩
  | .hbm, ⟨15, _⟩ => ⟨S10000x64, .f32⟩
  | .hbm, ⟨16, _⟩ => ⟨S10000x64, .f32⟩
  | .hbm, ⟨17, _⟩ => ⟨S10000x64, .f32⟩
  | .hbm, ⟨18, _⟩ => ⟨S1x64, .f32⟩
  | .hbm, ⟨19, _⟩ => ⟨S10000x64, .f32⟩
  | .hbm, ⟨20, _⟩ => ⟨S10000x64, .f32⟩
  | .hbm, ⟨21, _⟩ => ⟨S_, .f32⟩
  | .hbm, ⟨22, _⟩ => ⟨S10000x64, .f32⟩
  | .hbm, ⟨23, _⟩ => ⟨S10000x64, .f32⟩
  | .hbm, ⟨24, _⟩ => ⟨S10000x1, .f32⟩
  | .hbm, ⟨25, _⟩ => ⟨S1x1, .f32⟩
  | .hbm, ⟨26, _⟩ => ⟨S10000x1, .f32⟩
  | .hbm, ⟨27, _⟩ => ⟨S10000x1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

class Facts : Prop extends Facts₀ where

variable [Facts]
-- ==== Proof.Layer1FrameW.lean ====
/-
  Region 0 of the two-pass graph convolution: the first pass streams 25 row blocks (400 rows each) of the dense
  adjacency matrix through the kernel body.  At the first grid point the body also computes the product of the
  feature matrix with the first weight matrix and keeps it in a scratch buffer; every later point reads that
  scratch back unchanged.  Each point stores one 400x64 block of the second layer's pre-aggregation operand.

  This module states, for any float instance, what the body leaves in the output block and in the scratch at each
  point (two control cases: the first point, and every other point), the invariant that carries the scratch's
  contents from point to point, the pipeline's proof data and the body obligation at a generic point.
-/
import proofs.«105481_g71605694759081_cont_9to1_m_564_3_alg».proof.Proof.Gen.Kernel.Launch
import proofs.«105481_g71605694759081_cont_9to1_m_564_3_alg».proof.Proof.Gen.Kernel.Skeleton
import proofs.«105481_g71605694759081_cont_9to1_m_564_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the pipeline fetched it there or not
    (an unfetched window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the pipeline fetched it there or not
    (an unfetched window's block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the pipeline fetched it there or not
    (an unfetched window's block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether the pipeline fetched it there or not
    (an unfetched window's block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether the pipeline fetched it there or not
    (an unfetched window's block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The branch on the grid coordinate -/

/-- The body's one conditional: "this is the first grid point". -/
abbrev cond0_0 (i : grid0.Coords) : Prop := (Scalar.cmpi .ne (Scalar.extui (Scalar.cmpi .eq (BitVec.ofNat 32 (i 0).val) 0#32)) 0#32) = 1#1
/-- It holds exactly at point 0. -/
theorem hcond0_0 : ∀ t : Fin cfg0.N, cond0_0 (grid0.coords t) ↔ t.val = 0 :=
  (by decide +kernel : ∀ t : Fin grid0.N, cond0_0 (grid0.coords t) ↔ t.val = 0)

/-! ## The memrefs the pipeline passes the body -/

abbrev ms0_0 (t : Fin cfg0.N) : Memref sig .tc .vmem S400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x64 .f32 := win0_5.stage (cfg0.slots t 5)
abbrev hs0_5 (t : Fin cfg0.N) : (ms0_5 t).IsWhole := hstage0_5 ((cfg0.slots t 5).cast nbuf0_5)
/-- The scratch that holds the features-times-weights product between points. -/
abbrev scM : Memref sig .tc .vmem S10000x64 .bf16 := Memref.whole cc0_scratch0
abbrev VS : View sig .tc .vmem S10000x64 .bf16 := (scM).view
/-- One staging buffer of the output window, through which its contents are stated. -/
abbrev VO : View sig .tc .vmem S400x64 .f32 := (Memref.whole cc0_stg5_0 : Memref sig .tc .vmem S400x64 .f32).view

/-- The scoped buffers of the core that this region never touches (the second pass's staging buffers), each at
    some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class invariant, with the scratch singled out. -/
theorem PhiA0_eq (c : Dev nD) :
    (Pipeline.ΦA spec0 c : sProp 𝕄)
      = iprop(((∃ d, owns (c : Thread nD τ) scM fullShare d) ∗ others c) ∗ (∃ r, prngReg c r)) := by
  unfold Pipeline.ΦA others; rw [scopedRest0_eq]; simp only [scM, owns_whole]; try rfl

/-! ## The body at the first point: the scratch is computed and stored, then read back -/

set_option maxHeartbeats 4000000 in
/-- The first point's run: the input blocks at their contents, the output buffer and the scratch at anything; the
    body ends with the inputs as they were and the pieces it stored into the output buffer and the scratch (found
    by the run). -/
noncomputable def runFirst (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S400x64 .f32) (harg6 : arg6.IsWhole) (arg7 : Memref sig .tc .vmem S10000x64 .bf16) (harg7 : arg7.IsWhole) (hc0 : cond0_0 i)
    (x0 : Vec F S400x10000 .f32) (x1 : Vec F S10000x128 .f32) (x2 : Vec F S128x64 .f32) (x3 : Vec F S1x64 .f32) (x4 : Vec F S64x64 .f32) :
    Σ' (L5 : List (View.Piece (Elt F) S400x64 .f32)), { LS : List (View.Piece (Elt F) S10000x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS)) -∗ K ⟨⟩))
          ⊢ wp frame (wpE (defs₀ (F := F)) Variants.none c none) E (cc0__layer1_kernel i arg1 harg1 arg2 harg2 arg3 harg3 arg4 harg4 arg5 harg5 arg6 harg6 arg7 harg7) K } := by
  refine ⟨?_, ?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS

set_option maxHeartbeats 4000000 in
/-- A later point's run: the adjacency block, the bias row and the second weight matrix at their contents, the
    scratch at the contents `xs` an earlier point left, the output buffer at anything; the body ends with all of
    them as they were and the pieces it stored into the output buffer. -/
noncomputable def runLater (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S400x64 .f32) (harg6 : arg6.IsWhole) (arg7 : Memref sig .tc .vmem S10000x64 .bf16) (harg7 : arg7.IsWhole) (hc0 : ¬cond0_0 i)
    (x0 : Vec F S400x10000 .f32) (x3 : Vec F S1x64 .f32) (x4 : Vec F S64x64 .f32) (xs : Vec F S10000x64 .bf16) :
    { L5 : List (View.Piece (Elt F) S400x64 .f32) //
      ∀ (E : Set ℕ) (K : PUnit → sProp 𝕄),
        iprop(owns (c : Thread nD τ) arg1 fullShare x0 ∗ owns (c : Thread nD τ) arg4 fullShare x3 ∗ owns (c : Thread nD τ) arg5 fullShare x4
            ∗ (∃ d, owns (c : Thread nD τ) arg6 fullShare d) ∗ owns (c : Thread nD τ) arg7 fullShare xs
            ∗ (iprop(owns (c : Thread nD τ) arg1 fullShare x0 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ owns (c : Thread nD τ) arg7 fullShare xs) -∗ K ⟨⟩))
          ⊢ wp frame (wpE (defs₀ (F := F)) Variants.none c none) E (cc0__layer1_kernel i arg1 harg1 arg2 harg2 arg3 harg3 arg4 harg4 arg5 harg5 arg6 harg6 arg7 harg7) K } := by
  refine ⟨?_, fun E K => ?run⟩
  case run =>
    simp only [cc0__layer1_kernel_eq_skeleton]; unfold cc0__layer1_kernel_skel
    unfold owns
    iintro ⟨⟨%f0, %hf0, H0⟩, ⟨%f3, %hf3, H3⟩, ⟨%f4, %hf4, H4⟩, ⟨%d5, %f5, -, H5⟩, ⟨%fs, %hfs, HS⟩, Hk⟩
    obtain rfl := harg1.eq_unread hf0; obtain rfl := harg4.eq_unread hf3; obtain rfl := harg5.eq_unread hf4
    obtain rfl := harg7.eq_unread hfs
    sl_exec (disch := exact hc0)
    sl_step
    iapply Hk
    isplitl [H0]
    · iexists _; isplitr; · ipureintro; exact harg1.read_unread _
      iexact H0
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS

/-! ## What the two cases leave -/

/-- The first point's stores into the scratch cover it. -/
theorem coverFirstS (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S400x64 .f32) (harg6 : arg6.IsWhole) (arg7 : Memref sig .tc .vmem S10000x64 .bf16) (harg7 : arg7.IsWhole) (hc0 : cond0_0 i)
    (x0 : Vec F S400x10000 .f32) (x1 : Vec F S10000x128 .f32) (x2 : Vec F S128x64 .f32) (x3 : Vec F S1x64 .f32) (x4 : Vec F S64x64 .f32) (y : S10000x64.Idx) :
    ∃ pc ∈ (runFirst c i arg1 harg1 arg2 harg2 arg3 harg3 arg4 harg4 arg5 harg5 arg6 harg6 arg7 harg7 hc0 x0 x1 x2 x3 x4).2.1, y ∈ pc.1.set :=
  View.cover_of_tiledL (runFirst c i arg1 harg1 arg2 harg2 arg3 harg3 arg4 harg4 arg5 harg5 arg6 harg6 arg7 harg7 hc0 x0 x1 x2 x3 x4).2.1 S10000x64.size (by sl_kernel_rfl) y

/-- The first point's stores into the output buffer cover it. -/
theorem coverFirstO (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S400x64 .f32) (harg6 : arg6.IsWhole) (arg7 : Memref sig .tc .vmem S10000x64 .bf16) (harg7 : arg7.IsWhole) (hc0 : cond0_0 i)
    (x0 : Vec F S400x10000 .f32) (x1 : Vec F S10000x128 .f32) (x2 : Vec F S128x64 .f32) (x3 : Vec F S1x64 .f32) (x4 : Vec F S64x64 .f32) (y : S400x64.Idx) :
    ∃ pc ∈ (runFirst c i arg1 harg1 arg2 harg2 arg3 harg3 arg4 harg4 arg5 harg5 arg6 harg6 arg7 harg7 hc0 x0 x1 x2 x3 x4).1, y ∈ pc.1.set :=
  View.cover_of_tiledL (runFirst c i arg1 harg1 arg2 harg2 arg3 harg3 arg4 harg4 arg5 harg5 arg6 harg6 arg7 harg7 hc0 x0 x1 x2 x3 x4).1 S400x64.size (by sl_kernel_rfl) y

/-- A later point's stores into the output buffer cover it. -/
theorem coverLaterO (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S400x64 .f32) (harg6 : arg6.IsWhole) (arg7 : Memref sig .tc .vmem S10000x64 .bf16) (harg7 : arg7.IsWhole) (hc0 : ¬cond0_0 i)
    (x0 : Vec F S400x10000 .f32) (x3 : Vec F S1x64 .f32) (x4 : Vec F S64x64 .f32) (xs : Vec F S10000x64 .bf16) (y : S400x64.Idx) :
    ∃ pc ∈ (runLater c i arg1 harg1 arg2 harg2 arg3 harg3 arg4 harg4 arg5 harg5 arg6 harg6 arg7 harg7 hc0 x0 x3 x4 xs).1, y ∈ pc.1.set :=
  View.cover_of_tiledL (runLater c i arg1 harg1 arg2 harg2 arg3 harg3 arg4 harg4 arg5 harg5 arg6 harg6 arg7 harg7 hc0 x0 x3 x4 xs).1 S400x64.size (by sl_kernel_rfl) y

/-- What the first point leaves in the scratch: its pieces read back. -/
def scrFirst (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S400x64 .f32) (harg6 : arg6.IsWhole) (arg7 : Memref sig .tc .vmem S10000x64 .bf16) (harg7 : arg7.IsWhole) (hc0 : cond0_0 i)
    (x0 : Vec F S400x10000 .f32) (x1 : Vec F S10000x128 .f32) (x2 : Vec F S128x64 .f32) (x3 : Vec F S1x64 .f32) (x4 : Vec F S64x64 .f32) : Vec F S10000x64 .bf16 :=
  VS.read (Elt F) (VS.writes (Elt F) VS.junk (runFirst c i arg1 harg1 arg2 harg2 arg3 harg3 arg4 harg4 arg5 harg5 arg6 harg6 arg7 harg7 hc0 x0 x1 x2 x3 x4).2.1)

/-- What the first point leaves in the output buffer. -/
def outFirst (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S400x64 .f32) (harg6 : arg6.IsWhole) (arg7 : Memref sig .tc .vmem S10000x64 .bf16) (harg7 : arg7.IsWhole) (hc0 : cond0_0 i)
    (x0 : Vec F S400x10000 .f32) (x1 : Vec F S10000x128 .f32) (x2 : Vec F S128x64 .f32) (x3 : Vec F S1x64 .f32) (x4 : Vec F S64x64 .f32) : Vec F S400x64 .f32 :=
  VO.read (Elt F) (VO.writes (Elt F) VO.junk (runFirst c i arg1 harg1 arg2 harg2 arg3 harg3 arg4 harg4 arg5 harg5 arg6 harg6 arg7 harg7 hc0 x0 x1 x2 x3 x4).1)

/-- What a later point leaves in the output buffer. -/
def outLater (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S400x64 .f32) (harg6 : arg6.IsWhole) (arg7 : Memref sig .tc .vmem S10000x64 .bf16) (harg7 : arg7.IsWhole) (hc0 : ¬cond0_0 i)
    (x0 : Vec F S400x10000 .f32) (x3 : Vec F S1x64 .f32) (x4 : Vec F S64x64 .f32) (xs : Vec F S10000x64 .bf16) : Vec F S400x64 .f32 :=
  VO.read (Elt F) (VO.writes (Elt F) VO.junk (runLater c i arg1 harg1 arg2 harg2 arg3 harg3 arg4 harg4 arg5 harg5 arg6 harg6 arg7 harg7 hc0 x0 x3 x4 xs).1)

/-- The first grid point. -/
def t0 : Fin cfg0.N := ⟨0, by rw [show cfg0.N = 25 from N_0]; omega⟩

/-- The scratch's contents after every point: what the first point stored (no later point stores into it). -/
def scr (c : Dev nD) : Vec F S10000x64 .bf16 :=
  scrFirst c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM (Memref.isWhole_whole _) ((hcond0_0 t0).mpr rfl) (iblk0 V c 0 t0) (iblk0 V c 1 t0) (iblk0 V c 2 t0) (iblk0 V c 3 t0) (iblk0 V c 4 t0)

/-- The output buffer's contents after the body at point `t`. -/
def outAt (c : Dev nD) (t : Fin cfg0.N) : Vec F S400x64 .f32 :=
  if h : t.val = 0 then
    outFirst c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) ((hcond0_0 t).mpr h) (iblk0 V c 0 t) (iblk0 V c 1 t) (iblk0 V c 2 t) (iblk0 V c 3 t) (iblk0 V c 4 t)
  else
    outLater c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) (fun hc => h ((hcond0_0 t).mp hc)) (iblk0 V c 0 t) (iblk0 V c 3 t) (iblk0 V c 4 t) (scr V c)

/-! ## The invariant carried from point to point -/

/-- Before the first point the class's invariant (every scoped buffer at anything); afterwards the scratch at
    `scr`, the untouched scoped buffers at anything, the generator register at some state. -/
def PhiS (c : Dev nD) : ℕ → sProp 𝕄
  | 0 => Pipeline.ΦA spec0 c
  | _ + 1 => iprop(((owns (c : Thread nD τ) scM fullShare (scr V c)) ∗ others c) ∗ (∃ r, prngReg c r))

theorem PhiS_pos (c : Dev nD) (n : ℕ) (hz : n ≠ 0) :
    PhiS V c n = iprop(((owns (c : Thread nD τ) scM fullShare (scr V c)) ∗ others c) ∗ (∃ r, prngReg c r)) := by
  cases n with
  | zero => exact absurd rfl hz
  | succ n => rfl

/-! ## The pipeline's proof data -/

/-- The arrays as the region finds them; after the body each input's buffer at its block, the output's at
    `outAt`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outAt V c t
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = outAt V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4000000 in
/-- The body at any point. At the first point the invariant hands the scratch over at anything and takes it back
    at what the point stored; at a later point it hands the scratch over at `scr` and takes it back unchanged. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4, after0_5]
  rw [show (dat0 V c).Φ t.succ = PhiS V c (t.val + 1) from rfl, show (dat0 V c).Φ t.castSucc = PhiS V c t.val from rfl]
  by_cases hz : t.val = 0
  · rw [hz, show PhiS V c 0 = Pipeline.ΦA spec0 c from rfl, PhiA0_eq, PhiS_pos V c (0 + 1) (by omega)]
    have ht : t = t0 := Fin.ext hz
    subst ht
    rw [show outAt V c t0 = outFirst c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM (Memref.isWhole_whole _) ((hcond0_0 t0).mpr rfl) (iblk0 V c 0 t0) (iblk0 V c 1 t0) (iblk0 V c 2 t0) (iblk0 V c 3 t0) (iblk0 V c 4 t0) from dif_pos rfl]
    unfold scr scrFirst outFirst
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply ((runFirst c (grid0.coords t0) _ _ _ _ _ _ _ _ _ _ _ _ _ _ ((hcond0_0 t0).mpr rfl) (iblk0 V c 0 t0) (iblk0 V c 1 t0) (iblk0 V c 2 t0) (iblk0 V c 3 t0) (iblk0 V c 4 t0)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS Hoth Hg]
    · isplitl [HS Hoth]
      · isplitl [HS]
        · unfold owns; iexists _; isplitr
          swap; · iexact HS
          ipureintro; exact View.read_writes_of_cover _ _ _ _ _ (coverFirstS c _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirstO c _ _ _ _ _ _ _ _ _ _ _ _ _ _ _ _ _ _ _ _ _)
  · rw [PhiS_pos V c _ hz, PhiS_pos V c (t.val + 1) (by omega)]
    rw [show outAt V c t = outLater c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) (fun hc => hz ((hcond0_0 t).mp hc)) (iblk0 V c 0 t) (iblk0 V c 3 t) (iblk0 V c 4 t) (scr V c) from dif_neg hz]
    unfold outLater
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply ((runLater c (grid0.coords t) _ _ _ _ _ _ _ _ _ _ _ _ _ _ (fun hc => hz ((hcond0_0 t).mp hc)) (iblk0 V c 0 t) (iblk0 V c 3 t) (iblk0 V c 4 t) (scr V c)).2 Set.univ _)
    isplitl [H0]; · iexact H0
    isplitl [H3]; · iexact H3
    isplitl [H4]; · iexact H4
    isplitl [H5]; · iexists _; iexact H5
    isplitl [HS]; · iexact HS
    iintro ⟨H0, H3, H4, ⟨%e5, H5⟩, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverLaterO c _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = Pipeline.ΦA spec0 c from rfl]
  try exact Idealize.SL.BI.Entails.refl _

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val from rfl,
    PhiS_pos V c _ (by rw [Fin.val_last]; have : cfg0.N = 25 := N_0; omega), PhiA0_eq]
  iintro ⟨⟨HS, Hoth⟩, Hg⟩
  isplitl [HS Hoth]
  · isplitl [HS]; · iexists _; iexact HS
    iexact Hoth
  iexact Hg

end Cert.Kernel.Gcn

end
-- ==== Proof.Layer2FrameW.lean ====
/-
  Region 1 of the two-pass graph convolution: the second pass streams the same 25 row blocks of the adjacency matrix
  against the first pass's whole result, adds the second bias, applies the rectifier and the final linear head, and
  stores one 400x1 block of the result per grid point.  The body has one control case and keeps nothing between
  points.

  This module states, for any float instance, what the body leaves in the output block at each point, the
  pipeline's proof data and the body obligation at a generic point.
-/
import proofs.«105481_g71605694759081_cont_9to1_m_564_3_alg».proof.Proof.Gen.Kernel.Launch
import proofs.«105481_g71605694759081_cont_9to1_m_564_3_alg».proof.Proof.Gen.Kernel.Skeleton
import proofs.«105481_g71605694759081_cont_9to1_m_564_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or not
    (an unfetched window's block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the pipeline fetched it there or not
    (an unfetched window's block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the pipeline fetched it there or not
    (an unfetched window's block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether the pipeline fetched it there or not
    (an unfetched window's block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether the pipeline fetched it there or not
    (an unfetched window's block index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The memrefs the pipeline passes the body -/

abbrev ms1_0 (t : Fin cfg1.N) : Memref sig .tc .vmem S400x10000 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S400x1 .f32 := win1_5.stage (cfg1.slots t 5)
abbrev hs1_5 (t : Fin cfg1.N) : (ms1_5 t).IsWhole := hstage1_5 ((cfg1.slots t 5).cast nbuf1_5)
/-- One staging buffer of the output window, through which its contents are stated. -/
abbrev VO1 : View sig .tc .vmem S400x1 .f32 := (Memref.whole cc1_stg5_0 : Memref sig .tc .vmem S400x1 .f32).view

/-! ## The body's run -/

set_option maxHeartbeats 4000000 in
/-- The body on whole staging memrefs, the inputs' at their contents and the output's at anything, ends with the
    inputs as they were and the pieces it stored into the output buffer (found by the run). -/
noncomputable def runSecond (c : Dev nD) (i : grid1.Coords) (arg1 : Memref sig .tc .vmem S400x10000 .f32) (harg1 : arg1.IsWhole) (arg2 : Memref sig .tc .vmem S10000x64 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S400x1 .f32) (harg6 : arg6.IsWhole)
    (x0 : Vec F S400x10000 .f32) (x1 : Vec F S10000x64 .f32) (x2 : Vec F S1x64 .f32) (x3 : Vec F S64x1 .f32) (x4 : Vec F S1x1 .f32) :
    { L5 : List (View.Piece (Elt F) S400x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)) -∗ K ⟨⟩))
          ⊢ wp frame (wpE (defs₀ (F := F)) Variants.none c none) E (cc1__layer2_kernel i arg1 harg1 arg2 harg2 arg3 harg3 arg4 harg4 arg5 harg5 arg6 harg6) K } := by
  refine ⟨?_, fun E K => ?run⟩
  case run =>
    simp only [cc1__layer2_kernel_eq_skeleton]; unfold cc1__layer2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

/-- The body's stores into the output buffer cover it. -/
theorem coverSecond (c : Dev nD) (i : grid1.Coords) (arg1 : Memref sig .tc .vmem S400x10000 .f32) (harg1 : arg1.IsWhole) (arg2 : Memref sig .tc .vmem S10000x64 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S400x1 .f32) (harg6 : arg6.IsWhole)
    (x0 : Vec F S400x10000 .f32) (x1 : Vec F S10000x64 .f32) (x2 : Vec F S1x64 .f32) (x3 : Vec F S64x1 .f32) (x4 : Vec F S1x1 .f32) (y : S400x1.Idx) :
    ∃ pc ∈ (runSecond c i arg1 harg1 arg2 harg2 arg3 harg3 arg4 harg4 arg5 harg5 arg6 harg6 x0 x1 x2 x3 x4).1, y ∈ pc.1.set :=
  View.cover_of_tiledL (runSecond c i arg1 harg1 arg2 harg2 arg3 harg3 arg4 harg4 arg5 harg5 arg6 harg6 x0 x1 x2 x3 x4).1 S400x1.size (by sl_kernel_rfl) y

/-- What the body leaves in the output buffer. -/
def outSecond (c : Dev nD) (i : grid1.Coords) (arg1 : Memref sig .tc .vmem S400x10000 .f32) (harg1 : arg1.IsWhole) (arg2 : Memref sig .tc .vmem S10000x64 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S400x1 .f32) (harg6 : arg6.IsWhole)
    (x0 : Vec F S400x10000 .f32) (x1 : Vec F S10000x64 .f32) (x2 : Vec F S1x64 .f32) (x3 : Vec F S64x1 .f32) (x4 : Vec F S1x1 .f32) : Vec F S400x1 .f32 :=
  VO1.read (Elt F) (VO1.writes (Elt F) VO1.junk (runSecond c i arg1 harg1 arg2 harg2 arg3 harg3 arg4 harg4 arg5 harg5 arg6 harg6 x0 x1 x2 x3 x4).1)

/-- The output buffer's contents after the body at point `t`. -/
def outAt1 (c : Dev nD) (t : Fin cfg1.N) : Vec F S400x1 .f32 :=
  outSecond c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t)

/-! ## The pipeline's proof data -/

/-- The arrays as the region finds them; after the body each input's buffer at its block, the output's at
    `outAt1`; the class's invariant (the scoped rest and the generator register, untouched); nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in
/-- The body at any point: the inputs' memrefs hold their blocks, so the run applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold outAt1 outSecond
  iintro ⟨HΦ, Ho, ⟨%d0, H0⟩, ⟨%d1, H1⟩, ⟨%d2, H2⟩, ⟨%d3, H3⟩, ⟨%d4, H4⟩, ⟨%d5, H5⟩⟩
  iapply ((runSecond c (grid1.coords t) _ _ _ _ _ _ _ _ _ _ _ _ (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (coverSecond c _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gcn

end
-- ==== Proof.KernelRunW.lean ====
/-
  The whole run of the two-pass graph convolution's host program: three host reshapes of the bias vectors, the first
  pass (region 0), the second pass (region 1).  The buffer contents at each boundary are folded through the
  program — after the reshapes, after region 0 (its result array at what its 25 write-backs leave), after region 1
  likewise — and every weakly fair execution is shown to terminate, nothing faulting, with every unscoped buffer
  at the last boundary's contents.  Stated for any float instance.
-/
import proofs.«105481_g71605694759081_cont_9to1_m_564_3_alg».proof.Proof.Layer1FrameW
import proofs.«105481_g71605694759081_cont_9to1_m_564_3_alg».proof.Proof.Layer2FrameW
import proofs.«105481_g71605694759081_cont_9to1_m_564_3_alg».proof.Proof.Gen.Kernel.Regions

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the three reshapes (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core's
    dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered with every unscoped buffer at `W1`, left with them at `W2`. Its
    windows' arrays are split out of the unscoped buffers at entry and put back at their final contents at exit;
    the generator register goes into the region's invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`. Its
    windows' arrays are split out of the unscoped buffers at entry and put back at their final contents at exit;
    the generator register goes into the region's invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The host program as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of the host program terminates, nothing
    faulting, and the final memory holds every unscoped buffer at the last boundary's contents `W3`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

end Cert.Kernel.Gcn

end
-- ==== Proof.KernelFrameW.lean ====
/-
  The frame of the two-pass graph convolution's host program: no reshape writes an argument array, the first pass
  only reads the arguments it stages and the second likewise, so each argument's buffer at the last boundary is its
  launch contents.  With the run, this is the frame claim at any float instance.
-/
import proofs.«105481_g71605694759081_cont_9to1_m_564_3_alg».proof.Proof.KernelRunW

set_option maxRecDepth 16384

noncomputable section

namespace Cert.Kernel.Gcn

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- `main_arg0` reaches the end as launched: no reshape writes it and neither pass changes it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 1).trans (((dat0 (V1 m) c).arrAt_in 1 rfl _).trans (A_eq0 (V1 m) c 1))
    _ = m ((c : Thread nD τ).loc main_arg0) := V1_of m c main_arg0 (by decide)

/-- `main_arg1` reaches the end as launched: no reshape writes it and neither pass changes it. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (V2 m) c).arrAt_in 0 rfl _).trans (A_eq1 (V2 m) c 0))
    _ = W1 m c (Proc.devRef .tc main_arg1) := (W2_arr m c 0).trans (((dat0 (V1 m) c).arrAt_in 0 rfl _).trans (A_eq0 (V1 m) c 0))
    _ = m ((c : Thread nD τ).loc main_arg1) := V1_of m c main_arg1 (by decide)

/-- `main_arg2` reaches the end as launched: no reshape writes it and neither pass changes it. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 2).trans (((dat0 (V1 m) c).arrAt_in 2 rfl _).trans (A_eq0 (V1 m) c 2))
    _ = m ((c : Thread nD τ).loc main_arg2) := V1_of m c main_arg2 (by decide)

/-- `main_arg3` reaches the end as launched: no reshape writes it and neither pass changes it. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := V1_of m c main_arg3 (by decide)

/-- `main_arg4` reaches the end as launched: no reshape writes it and neither pass changes it. -/
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := (W2_arr m c 4).trans (((dat0 (V1 m) c).arrAt_in 4 rfl _).trans (A_eq0 (V1 m) c 4))
    _ = m ((c : Thread nD τ).loc main_arg4) := V1_of m c main_arg4 (by decide)

/-- `main_arg5` reaches the end as launched: no reshape writes it and neither pass changes it. -/
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = m ((c : Thread nD τ).loc main_arg5) := V1_of m c main_arg5 (by decide)

/-- `main_arg6` reaches the end as launched: no reshape writes it and neither pass changes it. -/
theorem W3_main_arg6 (c : Dev nD) : W3 m c (Proc.devRef .tc main_arg6) = m ((c : Thread nD τ).loc main_arg6) :=
  calc W3 m c (Proc.devRef .tc main_arg6)
    _ = W2 m c (Proc.devRef .tc main_arg6) := (W3_arr m c 3).trans (((dat1 (V2 m) c).arrAt_in 3 rfl _).trans (A_eq1 (V2 m) c 3))
    _ = W1 m c (Proc.devRef .tc main_arg6) := W2_of_ne m c main_arg6 (by decide)
    _ = m ((c : Thread nD τ).loc main_arg6) := V1_of m c main_arg6 (by decide)

/-- `main_arg7` reaches the end as launched: no reshape writes it and neither pass changes it. -/
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := W2_of_ne m c main_arg7 (by decide)
    _ = m ((c : Thread nD τ).loc main_arg7) := V1_of m c main_arg7 (by decide)

/-- Every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c)⟩)
    (run_all m ρ)

end Cert.Kernel.Gcn

end
-- ==== Proof.Layer1Frame.lean ====
/-
  Region 0 of the two-pass graph convolution: the first pass streams 25 row blocks (400 rows each) of the dense
  adjacency matrix through the kernel body.  At the first grid point the body also computes the product of the
  feature matrix with the first weight matrix and keeps it in a scratch buffer; every later point reads that
  scratch back unchanged.  Each point stores one 400x64 block of the second layer's pre-aggregation operand.

  This module states, for any float instance, what the body leaves in the output block and in the scratch at each
  point (two control cases: the first point, and every other point), the invariant that carries the scratch's
  contents from point to point, the pipeline's proof data and the body obligation at a generic point.
-/
import proofs.«105481_g71605694759081_cont_9to1_m_564_3_alg».proof.Proof.Gen.KernelIdeal.Launch
import proofs.«105481_g71605694759081_cont_9to1_m_564_3_alg».proof.Proof.Gen.KernelIdeal.Skeleton
import proofs.«105481_g71605694759081_cont_9to1_m_564_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the pipeline fetched it there or not
    (an unfetched window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the pipeline fetched it there or not
    (an unfetched window's block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the pipeline fetched it there or not
    (an unfetched window's block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether the pipeline fetched it there or not
    (an unfetched window's block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether the pipeline fetched it there or not
    (an unfetched window's block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The branch on the grid coordinate -/

/-- The body's one conditional: "this is the first grid point". -/
abbrev cond0_0 (i : grid0.Coords) : Prop := (Scalar.cmpi .ne (Scalar.extui (Scalar.cmpi .eq (BitVec.ofNat 32 (i 0).val) 0#32)) 0#32) = 1#1
/-- It holds exactly at point 0. -/
theorem hcond0_0 : ∀ t : Fin cfg0.N, cond0_0 (grid0.coords t) ↔ t.val = 0 :=
  (by decide +kernel : ∀ t : Fin grid0.N, cond0_0 (grid0.coords t) ↔ t.val = 0)

/-! ## The memrefs the pipeline passes the body -/

abbrev ms0_0 (t : Fin cfg0.N) : Memref sig .tc .vmem S400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x64 .f32 := win0_5.stage (cfg0.slots t 5)
abbrev hs0_5 (t : Fin cfg0.N) : (ms0_5 t).IsWhole := hstage0_5 ((cfg0.slots t 5).cast nbuf0_5)
/-- The scratch that holds the features-times-weights product between points. -/
abbrev scM : Memref sig .tc .vmem S10000x64 .bf16 := Memref.whole cc0_scratch0
abbrev VS : View sig .tc .vmem S10000x64 .bf16 := (scM).view
/-- One staging buffer of the output window, through which its contents are stated. -/
abbrev VO : View sig .tc .vmem S400x64 .f32 := (Memref.whole cc0_stg5_0 : Memref sig .tc .vmem S400x64 .f32).view

/-- The scoped buffers of the core that this region never touches (the second pass's staging buffers), each at
    some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class invariant, with the scratch singled out. -/
theorem PhiA0_eq (c : Dev nD) :
    (Pipeline.ΦA spec0 c : sProp 𝕄)
      = iprop(((∃ d, owns (c : Thread nD τ) scM fullShare d) ∗ others c) ∗ (∃ r, prngReg c r)) := by
  unfold Pipeline.ΦA others; rw [scopedRest0_eq]; simp only [scM, owns_whole]; try rfl

/-! ## The body at the first point: the scratch is computed and stored, then read back -/

set_option maxHeartbeats 4000000 in
/-- The first point's run: the input blocks at their contents, the output buffer and the scratch at anything; the
    body ends with the inputs as they were and the pieces it stored into the output buffer and the scratch (found
    by the run). -/
noncomputable def runFirst (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S400x64 .f32) (harg6 : arg6.IsWhole) (arg7 : Memref sig .tc .vmem S10000x64 .bf16) (harg7 : arg7.IsWhole) (hc0 : cond0_0 i)
    (x0 : Vec F S400x10000 .f32) (x1 : Vec F S10000x128 .f32) (x2 : Vec F S128x64 .f32) (x3 : Vec F S1x64 .f32) (x4 : Vec F S64x64 .f32) :
    Σ' (L5 : List (View.Piece (Elt F) S400x64 .f32)), { LS : List (View.Piece (Elt F) S10000x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS)) -∗ K ⟨⟩))
          ⊢ wp frame (wpE (defs₀ (F := F)) Variants.none c none) E (cc0__layer1_kernel i arg1 harg1 arg2 harg2 arg3 harg3 arg4 harg4 arg5 harg5 arg6 harg6 arg7 harg7) K } := by
  refine ⟨?_, ?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS

set_option maxHeartbeats 4000000 in
/-- A later point's run: the adjacency block, the bias row and the second weight matrix at their contents, the
    scratch at the contents `xs` an earlier point left, the output buffer at anything; the body ends with all of
    them as they were and the pieces it stored into the output buffer. -/
noncomputable def runLater (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S400x64 .f32) (harg6 : arg6.IsWhole) (arg7 : Memref sig .tc .vmem S10000x64 .bf16) (harg7 : arg7.IsWhole) (hc0 : ¬cond0_0 i)
    (x0 : Vec F S400x10000 .f32) (x3 : Vec F S1x64 .f32) (x4 : Vec F S64x64 .f32) (xs : Vec F S10000x64 .bf16) :
    { L5 : List (View.Piece (Elt F) S400x64 .f32) //
      ∀ (E : Set ℕ) (K : PUnit → sProp 𝕄),
        iprop(owns (c : Thread nD τ) arg1 fullShare x0 ∗ owns (c : Thread nD τ) arg4 fullShare x3 ∗ owns (c : Thread nD τ) arg5 fullShare x4
            ∗ (∃ d, owns (c : Thread nD τ) arg6 fullShare d) ∗ owns (c : Thread nD τ) arg7 fullShare xs
            ∗ (iprop(owns (c : Thread nD τ) arg1 fullShare x0 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ owns (c : Thread nD τ) arg7 fullShare xs) -∗ K ⟨⟩))
          ⊢ wp frame (wpE (defs₀ (F := F)) Variants.none c none) E (cc0__layer1_kernel i arg1 harg1 arg2 harg2 arg3 harg3 arg4 harg4 arg5 harg5 arg6 harg6 arg7 harg7) K } := by
  refine ⟨?_, fun E K => ?run⟩
  case run =>
    simp only [cc0__layer1_kernel_eq_skeleton]; unfold cc0__layer1_kernel_skel
    unfold owns
    iintro ⟨⟨%f0, %hf0, H0⟩, ⟨%f3, %hf3, H3⟩, ⟨%f4, %hf4, H4⟩, ⟨%d5, %f5, -, H5⟩, ⟨%fs, %hfs, HS⟩, Hk⟩
    obtain rfl := harg1.eq_unread hf0; obtain rfl := harg4.eq_unread hf3; obtain rfl := harg5.eq_unread hf4
    obtain rfl := harg7.eq_unread hfs
    sl_exec (disch := exact hc0)
    sl_step
    iapply Hk
    isplitl [H0]
    · iexists _; isplitr; · ipureintro; exact harg1.read_unread _
      iexact H0
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS

/-! ## What the two cases leave -/

/-- The first point's stores into the scratch cover it. -/
theorem coverFirstS (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S400x64 .f32) (harg6 : arg6.IsWhole) (arg7 : Memref sig .tc .vmem S10000x64 .bf16) (harg7 : arg7.IsWhole) (hc0 : cond0_0 i)
    (x0 : Vec F S400x10000 .f32) (x1 : Vec F S10000x128 .f32) (x2 : Vec F S128x64 .f32) (x3 : Vec F S1x64 .f32) (x4 : Vec F S64x64 .f32) (y : S10000x64.Idx) :
    ∃ pc ∈ (runFirst c i arg1 harg1 arg2 harg2 arg3 harg3 arg4 harg4 arg5 harg5 arg6 harg6 arg7 harg7 hc0 x0 x1 x2 x3 x4).2.1, y ∈ pc.1.set :=
  View.cover_of_tiledL (runFirst c i arg1 harg1 arg2 harg2 arg3 harg3 arg4 harg4 arg5 harg5 arg6 harg6 arg7 harg7 hc0 x0 x1 x2 x3 x4).2.1 S10000x64.size (by sl_kernel_rfl) y

/-- The first point's stores into the output buffer cover it. -/
theorem coverFirstO (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S400x64 .f32) (harg6 : arg6.IsWhole) (arg7 : Memref sig .tc .vmem S10000x64 .bf16) (harg7 : arg7.IsWhole) (hc0 : cond0_0 i)
    (x0 : Vec F S400x10000 .f32) (x1 : Vec F S10000x128 .f32) (x2 : Vec F S128x64 .f32) (x3 : Vec F S1x64 .f32) (x4 : Vec F S64x64 .f32) (y : S400x64.Idx) :
    ∃ pc ∈ (runFirst c i arg1 harg1 arg2 harg2 arg3 harg3 arg4 harg4 arg5 harg5 arg6 harg6 arg7 harg7 hc0 x0 x1 x2 x3 x4).1, y ∈ pc.1.set :=
  View.cover_of_tiledL (runFirst c i arg1 harg1 arg2 harg2 arg3 harg3 arg4 harg4 arg5 harg5 arg6 harg6 arg7 harg7 hc0 x0 x1 x2 x3 x4).1 S400x64.size (by sl_kernel_rfl) y

/-- A later point's stores into the output buffer cover it. -/
theorem coverLaterO (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S400x64 .f32) (harg6 : arg6.IsWhole) (arg7 : Memref sig .tc .vmem S10000x64 .bf16) (harg7 : arg7.IsWhole) (hc0 : ¬cond0_0 i)
    (x0 : Vec F S400x10000 .f32) (x3 : Vec F S1x64 .f32) (x4 : Vec F S64x64 .f32) (xs : Vec F S10000x64 .bf16) (y : S400x64.Idx) :
    ∃ pc ∈ (runLater c i arg1 harg1 arg2 harg2 arg3 harg3 arg4 harg4 arg5 harg5 arg6 harg6 arg7 harg7 hc0 x0 x3 x4 xs).1, y ∈ pc.1.set :=
  View.cover_of_tiledL (runLater c i arg1 harg1 arg2 harg2 arg3 harg3 arg4 harg4 arg5 harg5 arg6 harg6 arg7 harg7 hc0 x0 x3 x4 xs).1 S400x64.size (by sl_kernel_rfl) y

/-- What the first point leaves in the scratch: its pieces read back. -/
def scrFirst (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S400x64 .f32) (harg6 : arg6.IsWhole) (arg7 : Memref sig .tc .vmem S10000x64 .bf16) (harg7 : arg7.IsWhole) (hc0 : cond0_0 i)
    (x0 : Vec F S400x10000 .f32) (x1 : Vec F S10000x128 .f32) (x2 : Vec F S128x64 .f32) (x3 : Vec F S1x64 .f32) (x4 : Vec F S64x64 .f32) : Vec F S10000x64 .bf16 :=
  VS.read (Elt F) (VS.writes (Elt F) VS.junk (runFirst c i arg1 harg1 arg2 harg2 arg3 harg3 arg4 harg4 arg5 harg5 arg6 harg6 arg7 harg7 hc0 x0 x1 x2 x3 x4).2.1)

/-- What the first point leaves in the output buffer. -/
def outFirst (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S400x64 .f32) (harg6 : arg6.IsWhole) (arg7 : Memref sig .tc .vmem S10000x64 .bf16) (harg7 : arg7.IsWhole) (hc0 : cond0_0 i)
    (x0 : Vec F S400x10000 .f32) (x1 : Vec F S10000x128 .f32) (x2 : Vec F S128x64 .f32) (x3 : Vec F S1x64 .f32) (x4 : Vec F S64x64 .f32) : Vec F S400x64 .f32 :=
  VO.read (Elt F) (VO.writes (Elt F) VO.junk (runFirst c i arg1 harg1 arg2 harg2 arg3 harg3 arg4 harg4 arg5 harg5 arg6 harg6 arg7 harg7 hc0 x0 x1 x2 x3 x4).1)

/-- What a later point leaves in the output buffer. -/
def outLater (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S400x64 .f32) (harg6 : arg6.IsWhole) (arg7 : Memref sig .tc .vmem S10000x64 .bf16) (harg7 : arg7.IsWhole) (hc0 : ¬cond0_0 i)
    (x0 : Vec F S400x10000 .f32) (x3 : Vec F S1x64 .f32) (x4 : Vec F S64x64 .f32) (xs : Vec F S10000x64 .bf16) : Vec F S400x64 .f32 :=
  VO.read (Elt F) (VO.writes (Elt F) VO.junk (runLater c i arg1 harg1 arg2 harg2 arg3 harg3 arg4 harg4 arg5 harg5 arg6 harg6 arg7 harg7 hc0 x0 x3 x4 xs).1)

/-- The first grid point. -/
def t0 : Fin cfg0.N := ⟨0, by rw [show cfg0.N = 25 from N_0]; omega⟩

/-- The scratch's contents after every point: what the first point stored (no later point stores into it). -/
def scr (c : Dev nD) : Vec F S10000x64 .bf16 :=
  scrFirst c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM (Memref.isWhole_whole _) ((hcond0_0 t0).mpr rfl) (iblk0 V c 0 t0) (iblk0 V c 1 t0) (iblk0 V c 2 t0) (iblk0 V c 3 t0) (iblk0 V c 4 t0)

/-- The output buffer's contents after the body at point `t`. -/
def outAt (c : Dev nD) (t : Fin cfg0.N) : Vec F S400x64 .f32 :=
  if h : t.val = 0 then
    outFirst c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) ((hcond0_0 t).mpr h) (iblk0 V c 0 t) (iblk0 V c 1 t) (iblk0 V c 2 t) (iblk0 V c 3 t) (iblk0 V c 4 t)
  else
    outLater c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) (fun hc => h ((hcond0_0 t).mp hc)) (iblk0 V c 0 t) (iblk0 V c 3 t) (iblk0 V c 4 t) (scr V c)

/-! ## The invariant carried from point to point -/

/-- Before the first point the class's invariant (every scoped buffer at anything); afterwards the scratch at
    `scr`, the untouched scoped buffers at anything, the generator register at some state. -/
def PhiS (c : Dev nD) : ℕ → sProp 𝕄
  | 0 => Pipeline.ΦA spec0 c
  | _ + 1 => iprop(((owns (c : Thread nD τ) scM fullShare (scr V c)) ∗ others c) ∗ (∃ r, prngReg c r))

theorem PhiS_pos (c : Dev nD) (n : ℕ) (hz : n ≠ 0) :
    PhiS V c n = iprop(((owns (c : Thread nD τ) scM fullShare (scr V c)) ∗ others c) ∗ (∃ r, prngReg c r)) := by
  cases n with
  | zero => exact absurd rfl hz
  | succ n => rfl

/-! ## The pipeline's proof data -/

/-- The arrays as the region finds them; after the body each input's buffer at its block, the output's at
    `outAt`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outAt V c t
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = outAt V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4000000 in
/-- The body at any point. At the first point the invariant hands the scratch over at anything and takes it back
    at what the point stored; at a later point it hands the scratch over at `scr` and takes it back unchanged. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4, after0_5]
  rw [show (dat0 V c).Φ t.succ = PhiS V c (t.val + 1) from rfl, show (dat0 V c).Φ t.castSucc = PhiS V c t.val from rfl]
  by_cases hz : t.val = 0
  · rw [hz, show PhiS V c 0 = Pipeline.ΦA spec0 c from rfl, PhiA0_eq, PhiS_pos V c (0 + 1) (by omega)]
    have ht : t = t0 := Fin.ext hz
    subst ht
    rw [show outAt V c t0 = outFirst c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM (Memref.isWhole_whole _) ((hcond0_0 t0).mpr rfl) (iblk0 V c 0 t0) (iblk0 V c 1 t0) (iblk0 V c 2 t0) (iblk0 V c 3 t0) (iblk0 V c 4 t0) from dif_pos rfl]
    unfold scr scrFirst outFirst
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply ((runFirst c (grid0.coords t0) _ _ _ _ _ _ _ _ _ _ _ _ _ _ ((hcond0_0 t0).mpr rfl) (iblk0 V c 0 t0) (iblk0 V c 1 t0) (iblk0 V c 2 t0) (iblk0 V c 3 t0) (iblk0 V c 4 t0)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS Hoth Hg]
    · isplitl [HS Hoth]
      · isplitl [HS]
        · unfold owns; iexists _; isplitr
          swap; · iexact HS
          ipureintro; exact View.read_writes_of_cover _ _ _ _ _ (coverFirstS c _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirstO c _ _ _ _ _ _ _ _ _ _ _ _ _ _ _ _ _ _ _ _ _)
  · rw [PhiS_pos V c _ hz, PhiS_pos V c (t.val + 1) (by omega)]
    rw [show outAt V c t = outLater c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) (fun hc => hz ((hcond0_0 t).mp hc)) (iblk0 V c 0 t) (iblk0 V c 3 t) (iblk0 V c 4 t) (scr V c) from dif_neg hz]
    unfold outLater
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply ((runLater c (grid0.coords t) _ _ _ _ _ _ _ _ _ _ _ _ _ _ (fun hc => hz ((hcond0_0 t).mp hc)) (iblk0 V c 0 t) (iblk0 V c 3 t) (iblk0 V c 4 t) (scr V c)).2 Set.univ _)
    isplitl [H0]; · iexact H0
    isplitl [H3]; · iexact H3
    isplitl [H4]; · iexact H4
    isplitl [H5]; · iexists _; iexact H5
    isplitl [HS]; · iexact HS
    iintro ⟨H0, H3, H4, ⟨%e5, H5⟩, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverLaterO c _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = Pipeline.ΦA spec0 c from rfl]
  try exact Idealize.SL.BI.Entails.refl _

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val from rfl,
    PhiS_pos V c _ (by rw [Fin.val_last]; have : cfg0.N = 25 := N_0; omega), PhiA0_eq]
  iintro ⟨⟨HS, Hoth⟩, Hg⟩
  isplitl [HS Hoth]
  · isplitl [HS]; · iexists _; iexact HS
    iexact Hoth
  iexact Hg

end Cert.KernelIdeal.Gcn

end
-- ==== Proof.Layer2Frame.lean ====
/-
  Region 1 of the two-pass graph convolution: the second pass streams the same 25 row blocks of the adjacency matrix
  against the first pass's whole result, adds the second bias, applies the rectifier and the final linear head, and
  stores one 400x1 block of the result per grid point.  The body has one control case and keeps nothing between
  points.

  This module states, for any float instance, what the body leaves in the output block at each point, the
  pipeline's proof data and the body obligation at a generic point.
-/
import proofs.«105481_g71605694759081_cont_9to1_m_564_3_alg».proof.Proof.Gen.KernelIdeal.Launch
import proofs.«105481_g71605694759081_cont_9to1_m_564_3_alg».proof.Proof.Gen.KernelIdeal.Skeleton
import proofs.«105481_g71605694759081_cont_9to1_m_564_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or not
    (an unfetched window's block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the pipeline fetched it there or not
    (an unfetched window's block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the pipeline fetched it there or not
    (an unfetched window's block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether the pipeline fetched it there or not
    (an unfetched window's block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether the pipeline fetched it there or not
    (an unfetched window's block index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The memrefs the pipeline passes the body -/

abbrev ms1_0 (t : Fin cfg1.N) : Memref sig .tc .vmem S400x10000 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S400x1 .f32 := win1_5.stage (cfg1.slots t 5)
abbrev hs1_5 (t : Fin cfg1.N) : (ms1_5 t).IsWhole := hstage1_5 ((cfg1.slots t 5).cast nbuf1_5)
/-- One staging buffer of the output window, through which its contents are stated. -/
abbrev VO1 : View sig .tc .vmem S400x1 .f32 := (Memref.whole cc1_stg5_0 : Memref sig .tc .vmem S400x1 .f32).view

/-! ## The body's run -/

set_option maxHeartbeats 4000000 in
/-- The body on whole staging memrefs, the inputs' at their contents and the output's at anything, ends with the
    inputs as they were and the pieces it stored into the output buffer (found by the run). -/
noncomputable def runSecond (c : Dev nD) (i : grid1.Coords) (arg1 : Memref sig .tc .vmem S400x10000 .f32) (harg1 : arg1.IsWhole) (arg2 : Memref sig .tc .vmem S10000x64 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S400x1 .f32) (harg6 : arg6.IsWhole)
    (x0 : Vec F S400x10000 .f32) (x1 : Vec F S10000x64 .f32) (x2 : Vec F S1x64 .f32) (x3 : Vec F S64x1 .f32) (x4 : Vec F S1x1 .f32) :
    { L5 : List (View.Piece (Elt F) S400x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)) -∗ K ⟨⟩))
          ⊢ wp frame (wpE (defs₀ (F := F)) Variants.none c none) E (cc1__layer2_kernel i arg1 harg1 arg2 harg2 arg3 harg3 arg4 harg4 arg5 harg5 arg6 harg6) K } := by
  refine ⟨?_, fun E K => ?run⟩
  case run =>
    simp only [cc1__layer2_kernel_eq_skeleton]; unfold cc1__layer2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

/-- The body's stores into the output buffer cover it. -/
theorem coverSecond (c : Dev nD) (i : grid1.Coords) (arg1 : Memref sig .tc .vmem S400x10000 .f32) (harg1 : arg1.IsWhole) (arg2 : Memref sig .tc .vmem S10000x64 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S400x1 .f32) (harg6 : arg6.IsWhole)
    (x0 : Vec F S400x10000 .f32) (x1 : Vec F S10000x64 .f32) (x2 : Vec F S1x64 .f32) (x3 : Vec F S64x1 .f32) (x4 : Vec F S1x1 .f32) (y : S400x1.Idx) :
    ∃ pc ∈ (runSecond c i arg1 harg1 arg2 harg2 arg3 harg3 arg4 harg4 arg5 harg5 arg6 harg6 x0 x1 x2 x3 x4).1, y ∈ pc.1.set :=
  View.cover_of_tiledL (runSecond c i arg1 harg1 arg2 harg2 arg3 harg3 arg4 harg4 arg5 harg5 arg6 harg6 x0 x1 x2 x3 x4).1 S400x1.size (by sl_kernel_rfl) y

/-- What the body leaves in the output buffer. -/
def outSecond (c : Dev nD) (i : grid1.Coords) (arg1 : Memref sig .tc .vmem S400x10000 .f32) (harg1 : arg1.IsWhole) (arg2 : Memref sig .tc .vmem S10000x64 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S400x1 .f32) (harg6 : arg6.IsWhole)
    (x0 : Vec F S400x10000 .f32) (x1 : Vec F S10000x64 .f32) (x2 : Vec F S1x64 .f32) (x3 : Vec F S64x1 .f32) (x4 : Vec F S1x1 .f32) : Vec F S400x1 .f32 :=
  VO1.read (Elt F) (VO1.writes (Elt F) VO1.junk (runSecond c i arg1 harg1 arg2 harg2 arg3 harg3 arg4 harg4 arg5 harg5 arg6 harg6 x0 x1 x2 x3 x4).1)

/-- The output buffer's contents after the body at point `t`. -/
def outAt1 (c : Dev nD) (t : Fin cfg1.N) : Vec F S400x1 .f32 :=
  outSecond c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t)

/-! ## The pipeline's proof data -/

/-- The arrays as the region finds them; after the body each input's buffer at its block, the output's at
    `outAt1`; the class's invariant (the scoped rest and the generator register, untouched); nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in
/-- The body at any point: the inputs' memrefs hold their blocks, so the run applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold outAt1 outSecond
  iintro ⟨HΦ, Ho, ⟨%d0, H0⟩, ⟨%d1, H1⟩, ⟨%d2, H2⟩, ⟨%d3, H3⟩, ⟨%d4, H4⟩, ⟨%d5, H5⟩⟩
  iapply ((runSecond c (grid1.coords t) _ _ _ _ _ _ _ _ _ _ _ _ (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (coverSecond c _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gcn

end
-- ==== Proof.KernelRun.lean ====
/-
  The whole run of the two-pass graph convolution's host program: three host reshapes of the bias vectors, the first
  pass (region 0), the second pass (region 1).  The buffer contents at each boundary are folded through the
  program — after the reshapes, after region 0 (its result array at what its 25 write-backs leave), after region 1
  likewise — and every weakly fair execution is shown to terminate, nothing faulting, with every unscoped buffer
  at the last boundary's contents.  Stated for any float instance.
-/
import proofs.«105481_g71605694759081_cont_9to1_m_564_3_alg».proof.Proof.Layer1Frame
import proofs.«105481_g71605694759081_cont_9to1_m_564_3_alg».proof.Proof.Layer2Frame
import proofs.«105481_g71605694759081_cont_9to1_m_564_3_alg».proof.Proof.Gen.KernelIdeal.Regions

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the three reshapes (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core's
    dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered with every unscoped buffer at `W1`, left with them at `W2`. Its
    windows' arrays are split out of the unscoped buffers at entry and put back at their final contents at exit;
    the generator register goes into the region's invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`. Its
    windows' arrays are split out of the unscoped buffers at entry and put back at their final contents at exit;
    the generator register goes into the region's invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The host program as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of the host program terminates, nothing
    faulting, and the final memory holds every unscoped buffer at the last boundary's contents `W3`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

end Cert.KernelIdeal.Gcn

end
-- ==== Proof.KernelFrame.lean ====
/-
  The frame of the two-pass graph convolution's host program: no reshape writes an argument array, the first pass
  only reads the arguments it stages and the second likewise, so each argument's buffer at the last boundary is its
  launch contents.  With the run, this is the frame claim at any float instance.
-/
import proofs.«105481_g71605694759081_cont_9to1_m_564_3_alg».proof.Proof.KernelRun

set_option maxRecDepth 16384

noncomputable section

namespace Cert.KernelIdeal.Gcn

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- `main_arg0` reaches the end as launched: no reshape writes it and neither pass changes it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 1).trans (((dat0 (V1 m) c).arrAt_in 1 rfl _).trans (A_eq0 (V1 m) c 1))
    _ = m ((c : Thread nD τ).loc main_arg0) := V1_of m c main_arg0 (by decide)

/-- `main_arg1` reaches the end as launched: no reshape writes it and neither pass changes it. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (V2 m) c).arrAt_in 0 rfl _).trans (A_eq1 (V2 m) c 0))
    _ = W1 m c (Proc.devRef .tc main_arg1) := (W2_arr m c 0).trans (((dat0 (V1 m) c).arrAt_in 0 rfl _).trans (A_eq0 (V1 m) c 0))
    _ = m ((c : Thread nD τ).loc main_arg1) := V1_of m c main_arg1 (by decide)

/-- `main_arg2` reaches the end as launched: no reshape writes it and neither pass changes it. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 2).trans (((dat0 (V1 m) c).arrAt_in 2 rfl _).trans (A_eq0 (V1 m) c 2))
    _ = m ((c : Thread nD τ).loc main_arg2) := V1_of m c main_arg2 (by decide)

/-- `main_arg3` reaches the end as launched: no reshape writes it and neither pass changes it. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := V1_of m c main_arg3 (by decide)

/-- `main_arg4` reaches the end as launched: no reshape writes it and neither pass changes it. -/
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := (W2_arr m c 4).trans (((dat0 (V1 m) c).arrAt_in 4 rfl _).trans (A_eq0 (V1 m) c 4))
    _ = m ((c : Thread nD τ).loc main_arg4) := V1_of m c main_arg4 (by decide)

/-- `main_arg5` reaches the end as launched: no reshape writes it and neither pass changes it. -/
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = m ((c : Thread nD τ).loc main_arg5) := V1_of m c main_arg5 (by decide)

/-- `main_arg6` reaches the end as launched: no reshape writes it and neither pass changes it. -/
theorem W3_main_arg6 (c : Dev nD) : W3 m c (Proc.devRef .tc main_arg6) = m ((c : Thread nD τ).loc main_arg6) :=
  calc W3 m c (Proc.devRef .tc main_arg6)
    _ = W2 m c (Proc.devRef .tc main_arg6) := (W3_arr m c 3).trans (((dat1 (V2 m) c).arrAt_in 3 rfl _).trans (A_eq1 (V2 m) c 3))
    _ = W1 m c (Proc.devRef .tc main_arg6) := W2_of_ne m c main_arg6 (by decide)
    _ = m ((c : Thread nD τ).loc main_arg6) := V1_of m c main_arg6 (by decide)

/-- `main_arg7` reaches the end as launched: no reshape writes it and neither pass changes it. -/
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := W2_of_ne m c main_arg7 (by decide)
    _ = m ((c : Thread nD τ).loc main_arg7) := V1_of m c main_arg7 (by decide)

/-- Every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c)⟩)
    (run_all m ρ)

end Cert.KernelIdeal.Gcn

end
-- ==== Proof.KernelValue.lean ====
/-
  What the two passes' bodies leave, in terms of the printed arithmetic: at every grid point the first pass's output
  block is the second-layer operand of the point's adjacency rows (aggregate the stored feature product, add the
  bias row, rectify, multiply by the second weight matrix); the scratch holds the feature product computed at the
  first point; the second pass's output block is the head of the point's adjacency rows over the first pass's whole
  result.  Each whole-rectangle store reads back as its payload, and each whole-rectangle load reads the buffer's
  contents.  Stated for any float instance.
-/
import proofs.«105481_g71605694759081_cont_9to1_m_564_3_alg».proof.Proof.Layer1Frame
import proofs.«105481_g71605694759081_cont_9to1_m_564_3_alg».proof.Proof.Layer2Frame
import Idealize.ShloMosaic.Lib.Pipeline.Value

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A later point stores, over the whole output block, the payload of the four buffers it loads whole. -/
theorem outLater_eq (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S400x64 .f32) (harg6 : arg6.IsWhole) (arg7 : Memref sig .tc .vmem S10000x64 .bf16) (harg7 : arg7.IsWhole) (hc0 : ¬cond0_0 i)
    (x0 : Vec F S400x10000 .f32) (x3 : Vec F S1x64 .f32) (x4 : Vec F S64x64 .f32) (xs : Vec F S10000x64 .bf16) :
    outLater c i arg1 harg1 arg2 harg2 arg3 harg3 arg4 harg4 arg5 harg5 arg6 harg6 arg7 harg7 hc0 x0 x3 x4 xs = k0_pay2 x0 xs x3 x4 := by
  unfold outLater
  rw [View.read_writes_eq_canon _ _ _ (coverLaterO c i arg1 harg1 arg2 harg2 arg3 harg3 arg4 harg4 arg5 harg5 arg6 harg6 arg7 harg7 hc0 x0 x3 x4 xs)]
  unfold runLater
  dsimp only
  have hz : (![0, 0] : Fin 2 → Nat) = fun _ => 0 := funext fun a => by fin_cases a <;> rfl
  sl_unfold_words
  rw [View.canon_unit_zero (S := S400x64) hz]
  simp only [View.readAt_eq_ld, harg1.read_unread, harg4.read_unread, harg5.read_unread, harg7.read_unread,
    View.ld_unit_zero (S := S400x10000) hz, View.ld_unit_zero (S := S1x64) hz, View.ld_unit_zero (S := S64x64) hz,
    View.ld_unit_zero (S := S10000x64) hz]

/-- The first point stores the feature product over the whole scratch. -/
theorem scrFirst_eq (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S400x64 .f32) (harg6 : arg6.IsWhole) (arg7 : Memref sig .tc .vmem S10000x64 .bf16) (harg7 : arg7.IsWhole) (hc0 : cond0_0 i)
    (x0 : Vec F S400x10000 .f32) (x1 : Vec F S10000x128 .f32) (x2 : Vec F S128x64 .f32) (x3 : Vec F S1x64 .f32) (x4 : Vec F S64x64 .f32) :
    scrFirst c i arg1 harg1 arg2 harg2 arg3 harg3 arg4 harg4 arg5 harg5 arg6 harg6 arg7 harg7 hc0 x0 x1 x2 x3 x4 = k0_pay1 x1 x2 := by
  unfold scrFirst
  rw [View.read_writes_eq_canon _ _ _ (coverFirstS c i arg1 harg1 arg2 harg2 arg3 harg3 arg4 harg4 arg5 harg5 arg6 harg6 arg7 harg7 hc0 x0 x1 x2 x3 x4)]
  unfold runFirst
  dsimp only
  have hz : (![0, 0] : Fin 2 → Nat) = fun _ => 0 := funext fun a => by fin_cases a <;> rfl
  sl_unfold_words
  rw [View.canon_unit_zero (S := S10000x64) hz]
  simp only [View.readAt_eq_ld, harg2.read_unread, harg3.read_unread,
    View.ld_unit_zero (S := S10000x128) hz, View.ld_unit_zero (S := S128x64) hz]

/-- The first point then reads the scratch back whole and stores the same payload as a later point, over it. -/
theorem outFirst_eq (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S400x64 .f32) (harg6 : arg6.IsWhole) (arg7 : Memref sig .tc .vmem S10000x64 .bf16) (harg7 : arg7.IsWhole) (hc0 : cond0_0 i)
    (x0 : Vec F S400x10000 .f32) (x1 : Vec F S10000x128 .f32) (x2 : Vec F S128x64 .f32) (x3 : Vec F S1x64 .f32) (x4 : Vec F S64x64 .f32) :
    outFirst c i arg1 harg1 arg2 harg2 arg3 harg3 arg4 harg4 arg5 harg5 arg6 harg6 arg7 harg7 hc0 x0 x1 x2 x3 x4 = k0_pay2 x0 (k0_pay1 x1 x2) x3 x4 := by
  unfold outFirst
  rw [View.read_writes_eq_canon _ _ _ (coverFirstO c i arg1 harg1 arg2 harg2 arg3 harg3 arg4 harg4 arg5 harg5 arg6 harg6 arg7 harg7 hc0 x0 x1 x2 x3 x4)]
  unfold runFirst
  dsimp only
  have hz : (![0, 0] : Fin 2 → Nat) = fun _ => 0 := funext fun a => by fin_cases a <;> rfl
  sl_unfold_words
  rw [View.canon_unit_zero (S := S400x64) hz, View.readCov_unit_zero (S := S10000x64) _ hz]
  simp only [View.readAt_eq_ld, harg1.read_unread, harg2.read_unread, harg3.read_unread, harg4.read_unread, harg5.read_unread,
    View.ld_unit_zero (S := S400x10000) hz, View.ld_unit_zero (S := S1x64) hz, View.ld_unit_zero (S := S64x64) hz,
    View.ld_unit_zero (S := S10000x128) hz, View.ld_unit_zero (S := S128x64) hz]

/-- The second pass stores, over the whole output block, the payload of the five buffers it loads whole. -/
theorem outSecond_eq (c : Dev nD) (i : grid1.Coords) (arg1 : Memref sig .tc .vmem S400x10000 .f32) (harg1 : arg1.IsWhole) (arg2 : Memref sig .tc .vmem S10000x64 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S400x1 .f32) (harg6 : arg6.IsWhole)
    (x0 : Vec F S400x10000 .f32) (x1 : Vec F S10000x64 .f32) (x2 : Vec F S1x64 .f32) (x3 : Vec F S64x1 .f32) (x4 : Vec F S1x1 .f32) :
    outSecond c i arg1 harg1 arg2 harg2 arg3 harg3 arg4 harg4 arg5 harg5 arg6 harg6 x0 x1 x2 x3 x4 = k1_pay1 x0 x1 x2 x3 x4 := by
  unfold outSecond
  rw [View.read_writes_eq_canon _ _ _ (coverSecond c i arg1 harg1 arg2 harg2 arg3 harg3 arg4 harg4 arg5 harg5 arg6 harg6 x0 x1 x2 x3 x4)]
  unfold runSecond
  dsimp only
  have hz : (![0, 0] : Fin 2 → Nat) = fun _ => 0 := funext fun a => by fin_cases a <;> rfl
  sl_unfold_words
  rw [View.canon_unit_zero (S := S400x1) hz]
  simp only [View.readAt_eq_ld, harg1.read_unread, harg2.read_unread, harg3.read_unread, harg4.read_unread, harg5.read_unread,
    View.ld_unit_zero (S := S400x10000) hz, View.ld_unit_zero (S := S10000x64) hz, View.ld_unit_zero (S := S1x64) hz,
    View.ld_unit_zero (S := S64x1) hz, View.ld_unit_zero (S := S1x1) hz]

variable (V : (c : Dev nD) → (b : Ref sig .tc) → Buf (Elt F) ((c : Thread nD τ).loc b))

/-- The scratch holds, from the first point on, the feature product of the whole feature and weight arrays. -/
theorem scr_eq (c : Dev nD) : scr V c = k0_pay1 (iblk0 V c 1 t0) (iblk0 V c 2 t0) := by
  unfold scr; exact scrFirst_eq c _ _ _ _ _ _ _ _ _ _ _ _ _ _ _ _ _ _ _ _ _

/-- The first pass's output block at every point. -/
theorem outAt_eq (c : Dev nD) (t : Fin cfg0.N) :
    outAt V c t = k0_pay2 (iblk0 V c 0 t) (scr V c) (iblk0 V c 3 t) (iblk0 V c 4 t) := by
  unfold outAt
  by_cases h : t.val = 0
  · rw [dif_pos h, outFirst_eq]
    have ht : t = t0 := Fin.ext h
    subst ht
    rw [scr_eq]
  · rw [dif_neg h, outLater_eq]

/-- The second pass's output block at every point. -/
theorem outAt1_eq (c : Dev nD) (t : Fin cfg1.N) :
    outAt1 V c t = k1_pay1 (iblk1 V c 0 t) (iblk1 V c 1 t) (iblk1 V c 2 t) (iblk1 V c 3 t) (iblk1 V c 4 t) := by
  unfold outAt1; exact outSecond_eq c _ _ _ _ _ _ _ _ _ _ _ _ _ _ _ _ _ _

end Cert.KernelIdeal.Gcn

end
-- ==== Proof.Spec.lean ====
/-
  The mathematics of a two-layer dense graph convolution, over the extended reals: a matrix product as an explicit
  finite sum, one hidden layer `relu (A · S + b)` with `b` a single row added to every row, and that hidden layer
  followed by one more matrix product. Nothing here mentions a program: the two programs' values are each shown
  equal to these terms, and a block of rows of the result is read as the same rows of the whole array's result.
-/
import Idealize.ShloMosaic.PureOps.Ideal.Laws
import Idealize.ShloMosaic.Lib.ValueIdx

noncomputable section

open scoped BigOperators

namespace Cert.GcnSpec

open Idealize.ShloMosaic Idealize.ShloMosaic.ValueIdx

/-- The shape of an `a × b` matrix, spelt as the literal the index constructors `ix2` build indices of. -/
abbrev Sh (a b : Nat) : Shape := ⟨2, ![a, b]⟩

/-- The matrix product `A · B` at row `r` and column `c`: the sum over the inner index of the products. -/
def mmAt {n k p : Nat} (A : (Sh n k).Idx → EReal) (B : (Sh k p).Idx → EReal) (r : Fin n) (c : Fin p) : EReal :=
  ∑ l : Fin k, A (ix2 r l) * B (ix2 l c)

/-- The matrix product `A · B`. -/
def mm {n k p : Nat} (A : (Sh n k).Idx → EReal) (B : (Sh k p).Idx → EReal) : (Sh n p).Idx → EReal :=
  fun i => mmAt A B (i 0) (i 1)

theorem mm_apply {n k p : Nat} (A : (Sh n k).Idx → EReal) (B : (Sh k p).Idx → EReal) (r : Fin n) (c : Fin p) :
    mm A B (ix2 r c) = ∑ l : Fin k, A (ix2 r l) * B (ix2 l c) := rfl

/-- The zero a rectified linear unit compares with: the extended real the all-zero 32-bit word encodes. -/
abbrev zero32 : Ideal .f32 := Ideal.ofBits .f32 0x00000000#32

/-- One hidden layer at row `r`, column `c`: `max ((A · S) r c + b 0 c) 0`, with `b` a `1 × 64` row. The sum and the
    maximum are the ideal float instance's own operations (the extended reals' `+` and `max`), left folded. -/
def hiddenAt {n : Nat} (A : (Sh n 10000).Idx → EReal) (S : (Sh 10000 64).Idx → EReal) (b : (Sh 1 64).Idx → EReal)
    (r : Fin n) (c : Fin 64) : EReal :=
  FloatOps.maximumf (F := Ideal) (φ := .f32)
    (FloatOps.addf (F := Ideal) (φ := .f32) (mmAt A S r c) (b (ix2 (0 : Fin 1) c))) zero32

/-- One hidden layer `relu (A · S + b)`. -/
def hidden {n : Nat} (A : (Sh n 10000).Idx → EReal) (S : (Sh 10000 64).Idx → EReal) (b : (Sh 1 64).Idx → EReal) :
    (Sh n 64).Idx → EReal :=
  fun i => hiddenAt A S b (i 0) (i 1)

theorem hidden_apply {n : Nat} (A : (Sh n 10000).Idx → EReal) (S : (Sh 10000 64).Idx → EReal) (b : (Sh 1 64).Idx → EReal)
    (r : Fin n) (c : Fin 64) :
    hidden A S b (ix2 r c) = FloatOps.maximumf (F := Ideal) (φ := .f32)
      (FloatOps.addf (F := Ideal) (φ := .f32) (mm A S (ix2 r c)) (b (ix2 (0 : Fin 1) c))) zero32 := rfl

/-- A hidden layer followed by a matrix product: `relu (A · S + b) · W`. -/
def layer {n p : Nat} (A : (Sh n 10000).Idx → EReal) (S : (Sh 10000 64).Idx → EReal) (b : (Sh 1 64).Idx → EReal)
    (W : (Sh 64 p).Idx → EReal) : (Sh n p).Idx → EReal :=
  mm (hidden A S b) W

theorem layer_apply {n p : Nat} (A : (Sh n 10000).Idx → EReal) (S : (Sh 10000 64).Idx → EReal) (b : (Sh 1 64).Idx → EReal)
    (W : (Sh 64 p).Idx → EReal) (r : Fin n) (c : Fin p) :
    layer A S b W (ix2 r c) = ∑ l : Fin 64, hidden A S b (ix2 r l) * W (ix2 l c) := rfl

/-- A length-64 vector as the one row of a `1 × 64` matrix. -/
def row (v : (⟨1, ![64]⟩ : Shape).Idx → EReal) : (Sh 1 64).Idx → EReal := fun j => v (ix1 (j 1))

theorem row_apply (v : (⟨1, ![64]⟩ : Shape).Idx → EReal) (z : Fin 1) (c : Fin 64) : row v (ix2 z c) = v (ix1 c) := rfl

/-- A hidden layer is computed row by row: if the rows of `A'` are the rows `off, off + 1, …` of `A`, then row `r` of
    the hidden layer over `A'` is row `off + r` of the hidden layer over `A`. -/
theorem hidden_rows {m n : Nat} (off : Nat) (hoff : off + m ≤ n) (A' : (Sh m 10000).Idx → EReal)
    (A : (Sh n 10000).Idx → EReal) (S : (Sh 10000 64).Idx → EReal) (b : (Sh 1 64).Idx → EReal)
    (hA : ∀ (r : Fin m) (l : Fin 10000), A' (ix2 r l) = A (ix2 (⟨off + r.val, by have := r.isLt; omega⟩ : Fin n) l))
    (r : Fin m) (c : Fin 64) :
    hidden A' S b (ix2 r c) = hidden A S b (ix2 (⟨off + r.val, by have := r.isLt; omega⟩ : Fin n) c) := by
  show hiddenAt A' S b r c = hiddenAt A S b (⟨off + r.val, by have := r.isLt; omega⟩ : Fin n) c
  unfold hiddenAt mmAt
  simp only [hA]

/-- So is a layer: a block of rows of the adjacency matrix gives the same rows of the layer's result. -/
theorem layer_rows {m n p : Nat} (off : Nat) (hoff : off + m ≤ n) (A' : (Sh m 10000).Idx → EReal)
    (A : (Sh n 10000).Idx → EReal) (S : (Sh 10000 64).Idx → EReal) (b : (Sh 1 64).Idx → EReal) (W : (Sh 64 p).Idx → EReal)
    (hA : ∀ (r : Fin m) (l : Fin 10000), A' (ix2 r l) = A (ix2 (⟨off + r.val, by have := r.isLt; omega⟩ : Fin n) l))
    (r : Fin m) (c : Fin p) :
    layer A' S b W (ix2 r c) = layer A S b W (ix2 (⟨off + r.val, by have := r.isLt; omega⟩ : Fin n) c) := by
  rw [layer_apply, layer_apply]
  refine Finset.sum_congr rfl fun l _ => ?_
  rw [hidden_rows off hoff A' A S b hA r l]

end Cert.GcnSpec

end
-- ==== Proof.PayloadValue.lean ====
/-
  The three pure terms the kernel stores, read as the mathematics of Spec: each is a chain of matrix products into a
  zero accumulator, narrowing format changes (the identity on extended reals), a row added to every row, and a maximum
  with zero. A product is re-indexed from the dimension numbers' contraction index to the contracted axis's coordinate.
-/
import proofs.«105481_g71605694759081_cont_9to1_m_564_3_alg».proof.Proof.Spec
import proofs.«105481_g71605694759081_cont_9to1_m_564_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.GcnValue

open Cert.KernelIdeal Cert.KernelIdeal.Gen Idealize.ShloMosaic Idealize.ShloMosaic.TcCoe Idealize.ShloMosaic.ValueIdx

/-- A narrowing format change is the identity on extended reals, as whole vectors. -/
theorem truncf_eq {s : Shape} {φ ψ : FTy} (a : FVec Ideal s φ) (h : ψ.bits < φ.bits) :
    (truncf ψ a h : FVec Ideal s ψ) = a := rfl

/-! ### The `10000 × 128` by `128 × 64` product -/

theorem lhs0_A (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs1_A (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem rhs0_A (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem rhs1_A (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The matrix unit's product into a zero accumulator is the matrix product: the sum over the one contracted axis,
    re-indexed by that axis's coordinate. -/
theorem matmul_A {φ₁ φ₂ : FTy} (lhs : FVec Ideal S10000x128 φ₁) (rhs : FVec Ideal S128x64 φ₂) :
    matmul dot_S10000x128_S128x64_S10000x64_1_0_0_1_n_n none lhs rhs (constant (F := Ideal) S10000x64 .f32 0x00000000#32)
      = Cert.GcnSpec.mm (n := 10000) (k := 128) (p := 64) lhs rhs := by
  funext j
  obtain ⟨r, c, rfl⟩ : ∃ (r : Fin 10000) (c : Fin 64), j = ix2 r c := ⟨j 0, j 1, eq_ix2 j⟩
  simp only [matmul]
  rw [Ideal.matmul_constant_zero_apply, Cert.GcnSpec.mm_apply,
    ← Equiv.sum_comp (ValueIdx.contrEquiv1 dot_S10000x128_S128x64_S10000x64_1_0_0_1_n_n 128 rfl rfl).symm]
  refine Finset.sum_congr rfl fun l _ => ?_
  have hk := ValueIdx.contrEquiv1_symm_val dot_S10000x128_S128x64_S10000x64_1_0_0_1_n_n 128 rfl rfl l
  have el : dot_S10000x128_S128x64_S10000x64_1_0_0_1_n_n.lhsIdx (ix2 r c) ((ValueIdx.contrEquiv1 dot_S10000x128_S128x64_S10000x64_1_0_0_1_n_n 128 rfl rfl).symm l) = ix2 r l := funext fun a => Fin.ext (by
    match a with
    | ⟨0, _⟩ => exact lhs0_A _ _
    | ⟨1, _⟩ => exact (lhs1_A _ _).trans hk)
  have er : dot_S10000x128_S128x64_S10000x64_1_0_0_1_n_n.rhsIdx (ix2 r c) ((ValueIdx.contrEquiv1 dot_S10000x128_S128x64_S10000x64_1_0_0_1_n_n 128 rfl rfl).symm l) = ix2 l c := funext fun a => Fin.ext (by
    match a with
    | ⟨0, _⟩ => exact (rhs0_A _ _).trans hk
    | ⟨1, _⟩ => exact rhs1_A _ _)
  rw [el, er]

/-! ### The `400 × 10000` by `10000 × 64` product -/

theorem lhs0_B (i : S400x64.Idx) (q : dot_S400x10000_S10000x64_S400x64_1_0_0_1_n_n.contr.Idx) : (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem lhs1_B (i : S400x64.Idx) (q : dot_S400x10000_S10000x64_S400x64_1_0_0_1_n_n.contr.Idx) : (dot_S400x10000_S10000x64_S400x64_1_0_0_1_n_n.lhsIdx i q 1).val = (q ⟨0, by decide⟩).val :=
  dot_S400x10000_S10000x64_S400x64_1_0_0_1_n_n.lhsIdx_val_of_single rfl i q
theorem rhs0_B (i : S400x64.Idx) (q : dot_S400x10000_S10000x64_S400x64_1_0_0_1_n_n.contr.Idx) : (dot_S400x10000_S10000x64_S400x64_1_0_0_1_n_n.rhsIdx i q 0).val = (q ⟨0, by decide⟩).val :=
  dot_S400x10000_S10000x64_S400x64_1_0_0_1_n_n.rhsIdx_val_of_single rfl i q
theorem rhs1_B (i : S400x64.Idx) (q : dot_S400x10000_S10000x64_S400x64_1_0_0_1_n_n.contr.Idx) : (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

/-- The matrix unit's product into a zero accumulator is the matrix product: the sum over the one contracted axis,
    re-indexed by that axis's coordinate. -/
theorem matmul_B {φ₁ φ₂ : FTy} (lhs : FVec Ideal S400x10000 φ₁) (rhs : FVec Ideal S10000x64 φ₂) :
    matmul dot_S400x10000_S10000x64_S400x64_1_0_0_1_n_n none lhs rhs (constant (F := Ideal) S400x64 .f32 0x00000000#32)
      = Cert.GcnSpec.mm (n := 400) (k := 10000) (p := 64) lhs rhs := by
  funext j
  obtain ⟨r, c, rfl⟩ : ∃ (r : Fin 400) (c : Fin 64), j = ix2 r c := ⟨j 0, j 1, eq_ix2 j⟩
  simp only [matmul]
  rw [Ideal.matmul_constant_zero_apply, Cert.GcnSpec.mm_apply,
    ← Equiv.sum_comp (ValueIdx.contrEquiv1 dot_S400x10000_S10000x64_S400x64_1_0_0_1_n_n 10000 rfl rfl).symm]
  refine Finset.sum_congr rfl fun l _ => ?_
  have hk := ValueIdx.contrEquiv1_symm_val dot_S400x10000_S10000x64_S400x64_1_0_0_1_n_n 10000 rfl rfl l
  have el : dot_S400x10000_S10000x64_S400x64_1_0_0_1_n_n.lhsIdx (ix2 r c) ((ValueIdx.contrEquiv1 dot_S400x10000_S10000x64_S400x64_1_0_0_1_n_n 10000 rfl rfl).symm l) = ix2 r l := funext fun a => Fin.ext (by
    match a with
    | ⟨0, _⟩ => exact lhs0_B _ _
    | ⟨1, _⟩ => exact (lhs1_B _ _).trans hk)
  have er : dot_S400x10000_S10000x64_S400x64_1_0_0_1_n_n.rhsIdx (ix2 r c) ((ValueIdx.contrEquiv1 dot_S400x10000_S10000x64_S400x64_1_0_0_1_n_n 10000 rfl rfl).symm l) = ix2 l c := funext fun a => Fin.ext (by
    match a with
    | ⟨0, _⟩ => exact (rhs0_B _ _).trans hk
    | ⟨1, _⟩ => exact rhs1_B _ _)
  rw [el, er]

/-! ### The `400 × 64` by `64 × 64` product -/

theorem lhs0_C (i : S400x64.Idx) (q : dot_S400x64_S64x64_S400x64_1_0_0_1_n_n.contr.Idx) : (dot_S400x64_S64x64_S400x64_1_0_0_1_n_n.lhsIdx i q 0).val = (i 0).val := by
  unfold DotDims.lhsIdx
  rw [dif_neg (show ¬(0 : Fin S400x64.rank) ∈ dot_S400x64_S64x64_S400x64_1_0_0_1_n_n.lhsBatch by decide), dif_pos (show (0 : Fin S400x64.rank) ∈ dot_S400x64_S64x64_S400x64_1_0_0_1_n_n.lhsNonContracting by decide)]
  rfl
theorem lhs1_C (i : S400x64.Idx) (q : dot_S400x64_S64x64_S400x64_1_0_0_1_n_n.contr.Idx) : (dot_S400x64_S64x64_S400x64_1_0_0_1_n_n.lhsIdx i q 1).val = (q ⟨0, by decide⟩).val :=
  dot_S400x64_S64x64_S400x64_1_0_0_1_n_n.lhsIdx_val_of_single rfl i q
theorem rhs0_C (i : S400x64.Idx) (q : dot_S400x64_S64x64_S400x64_1_0_0_1_n_n.contr.Idx) : (dot_S400x64_S64x64_S400x64_1_0_0_1_n_n.rhsIdx i q 0).val = (q ⟨0, by decide⟩).val :=
  dot_S400x64_S64x64_S400x64_1_0_0_1_n_n.rhsIdx_val_of_single rfl i q
theorem rhs1_C (i : S400x64.Idx) (q : dot_S400x64_S64x64_S400x64_1_0_0_1_n_n.contr.Idx) : (dot_S400x64_S64x64_S400x64_1_0_0_1_n_n.rhsIdx i q 1).val = (i 1).val := by
  unfold DotDims.rhsIdx
  rw [dif_neg (show ¬(1 : Fin S64x64.rank) ∈ dot_S400x64_S64x64_S400x64_1_0_0_1_n_n.rhsBatch by decide), dif_pos (show (1 : Fin S64x64.rank) ∈ dot_S400x64_S64x64_S400x64_1_0_0_1_n_n.rhsNonContracting by decide)]
  rfl

/-- The matrix unit's product into a zero accumulator is the matrix product: the sum over the one contracted axis,
    re-indexed by that axis's coordinate. -/
theorem matmul_C {φ₁ φ₂ : FTy} (lhs : FVec Ideal S400x64 φ₁) (rhs : FVec Ideal S64x64 φ₂) :
    matmul dot_S400x64_S64x64_S400x64_1_0_0_1_n_n none lhs rhs (constant (F := Ideal) S400x64 .f32 0x00000000#32)
      = Cert.GcnSpec.mm (n := 400) (k := 64) (p := 64) lhs rhs := by
  funext j
  obtain ⟨r, c, rfl⟩ : ∃ (r : Fin 400) (c : Fin 64), j = ix2 r c := ⟨j 0, j 1, eq_ix2 j⟩
  simp only [matmul]
  rw [Ideal.matmul_constant_zero_apply, Cert.GcnSpec.mm_apply,
    ← Equiv.sum_comp (ValueIdx.contrEquiv1 dot_S400x64_S64x64_S400x64_1_0_0_1_n_n 64 rfl rfl).symm]
  refine Finset.sum_congr rfl fun l _ => ?_
  have hk := ValueIdx.contrEquiv1_symm_val dot_S400x64_S64x64_S400x64_1_0_0_1_n_n 64 rfl rfl l
  have el : dot_S400x64_S64x64_S400x64_1_0_0_1_n_n.lhsIdx (ix2 r c) ((ValueIdx.contrEquiv1 dot_S400x64_S64x64_S400x64_1_0_0_1_n_n 64 rfl rfl).symm l) = ix2 r l := funext fun a => Fin.ext (by
    match a with
    | ⟨0, _⟩ => exact lhs0_C _ _
    | ⟨1, _⟩ => exact (lhs1_C _ _).trans hk)
  have er : dot_S400x64_S64x64_S400x64_1_0_0_1_n_n.rhsIdx (ix2 r c) ((ValueIdx.contrEquiv1 dot_S400x64_S64x64_S400x64_1_0_0_1_n_n 64 rfl rfl).symm l) = ix2 l c := funext fun a => Fin.ext (by
    match a with
    | ⟨0, _⟩ => exact (rhs0_C _ _).trans hk
    | ⟨1, _⟩ => exact rhs1_C _ _)
  rw [el, er]

/-! ### The `400 × 64` by `64 × 1` product -/

theorem lhs0_E (i : S400x1.Idx) (q : dot_S400x64_S64x1_S400x1_1_0_0_1_n_n.contr.Idx) : (dot_S400x64_S64x1_S400x1_1_0_0_1_n_n.lhsIdx i q 0).val = (i 0).val := by
  unfold DotDims.lhsIdx
  rw [dif_neg (show ¬(0 : Fin S400x64.rank) ∈ dot_S400x64_S64x1_S400x1_1_0_0_1_n_n.lhsBatch by decide), dif_pos (show (0 : Fin S400x64.rank) ∈ dot_S400x64_S64x1_S400x1_1_0_0_1_n_n.lhsNonContracting by decide)]
  rfl
theorem lhs1_E (i : S400x1.Idx) (q : dot_S400x64_S64x1_S400x1_1_0_0_1_n_n.contr.Idx) : (dot_S400x64_S64x1_S400x1_1_0_0_1_n_n.lhsIdx i q 1).val = (q ⟨0, by decide⟩).val :=
  dot_S400x64_S64x1_S400x1_1_0_0_1_n_n.lhsIdx_val_of_single rfl i q
theorem rhs0_E (i : S400x1.Idx) (q : dot_S400x64_S64x1_S400x1_1_0_0_1_n_n.contr.Idx) : (dot_S400x64_S64x1_S400x1_1_0_0_1_n_n.rhsIdx i q 0).val = (q ⟨0, by decide⟩).val :=
  dot_S400x64_S64x1_S400x1_1_0_0_1_n_n.rhsIdx_val_of_single rfl i q
theorem rhs1_E (i : S400x1.Idx) (q : dot_S400x64_S64x1_S400x1_1_0_0_1_n_n.contr.Idx) : (dot_S400x64_S64x1_S400x1_1_0_0_1_n_n.rhsIdx i q 1).val = (i 1).val := by
  unfold DotDims.rhsIdx
  rw [dif_neg (show ¬(1 : Fin S64x1.rank) ∈ dot_S400x64_S64x1_S400x1_1_0_0_1_n_n.rhsBatch by decide), dif_pos (show (1 : Fin S64x1.rank) ∈ dot_S400x64_S64x1_S400x1_1_0_0_1_n_n.rhsNonContracting by decide)]
  rfl

/-- The matrix unit's product into a zero accumulator is the matrix product: the sum over the one contracted axis,
    re-indexed by that axis's coordinate. -/
theorem matmul_E {φ₁ φ₂ : FTy} (lhs : FVec Ideal S400x64 φ₁) (rhs : FVec Ideal S64x1 φ₂) :
    matmul dot_S400x64_S64x1_S400x1_1_0_0_1_n_n none lhs rhs (constant (F := Ideal) S400x1 .f32 0x00000000#32)
      = Cert.GcnSpec.mm (n := 400) (k := 64) (p := 1) lhs rhs := by
  funext j
  obtain ⟨r, c, rfl⟩ : ∃ (r : Fin 400) (c : Fin 1), j = ix2 r c := ⟨j 0, j 1, eq_ix2 j⟩
  simp only [matmul]
  rw [Ideal.matmul_constant_zero_apply, Cert.GcnSpec.mm_apply,
    ← Equiv.sum_comp (ValueIdx.contrEquiv1 dot_S400x64_S64x1_S400x1_1_0_0_1_n_n 64 rfl rfl).symm]
  refine Finset.sum_congr rfl fun l _ => ?_
  have hk := ValueIdx.contrEquiv1_symm_val dot_S400x64_S64x1_S400x1_1_0_0_1_n_n 64 rfl rfl l
  have el : dot_S400x64_S64x1_S400x1_1_0_0_1_n_n.lhsIdx (ix2 r c) ((ValueIdx.contrEquiv1 dot_S400x64_S64x1_S400x1_1_0_0_1_n_n 64 rfl rfl).symm l) = ix2 r l := funext fun a => Fin.ext (by
    match a with
    | ⟨0, _⟩ => exact lhs0_E _ _
    | ⟨1, _⟩ => exact (lhs1_E _ _).trans hk)
  have er : dot_S400x64_S64x1_S400x1_1_0_0_1_n_n.rhsIdx (ix2 r c) ((ValueIdx.contrEquiv1 dot_S400x64_S64x1_S400x1_1_0_0_1_n_n 64 rfl rfl).symm l) = ix2 l c := funext fun a => Fin.ext (by
    match a with
    | ⟨0, _⟩ => exact (rhs0_E _ _).trans hk
    | ⟨1, _⟩ => exact rhs1_E _ _)
  rw [el, er]

/-! ## The payloads -/

/-- The first pass's shared term: `x · W₁`. -/
theorem pay1_eq (x : FVec Ideal S10000x128 .f32) (w1 : FVec Ideal S128x64 .f32) :
    Gen.k0_pay1 (F := Ideal) x w1 = Cert.GcnSpec.mm x w1 := by
  unfold Gen.k0_pay1
  simp only [truncf_eq, shapeCast_self]
  exact matmul_A x w1

/-- A row added to every row of `M`, then a maximum with the scalar `z` everywhere, read at `(r, c)`. -/
theorem relu_row_apply (M : FVec Ideal S400x64 .f32) (b : FVec Ideal S1x64 .f32) (hb : S1x64.Broadcasts S400x64)
    (z : Ideal .f32) (r : Fin 400) (c : Fin 64) :
    (maximumf (addf M (broadcastTo S400x64 b hb)) (broadcast S400x64 z) : FVec Ideal S400x64 .f32) (ix2 r c)
      = FloatOps.maximumf (F := Ideal) (φ := .f32)
          (FloatOps.addf (F := Ideal) (φ := .f32) (M (ix2 r c)) (b (ix2 (0 : Fin 1) c))) z := by
  show FloatOps.maximumf (FloatOps.addf (M (ix2 r c)) (broadcastTo S400x64 b hb (ix2 r c))) z = _
  rw [broadcastTo_1b_ab_apply]

/-- Over a product `A · S` and the zero word, that is the hidden layer. -/
theorem relu_row_eq (a : FVec Ideal S400x10000 .f32) (s : (Cert.GcnSpec.Sh 10000 64).Idx → EReal) (b : FVec Ideal S1x64 .f32)
    (hb : S1x64.Broadcasts S400x64) (z : Ideal .f32) (hz : z = Cert.GcnSpec.zero32) :
    (maximumf (addf (Cert.GcnSpec.mm (n := 400) (k := 10000) (p := 64) a s : FVec Ideal S400x64 .f32) (broadcastTo S400x64 b hb))
        (broadcast S400x64 z) : FVec Ideal S400x64 .f32)
      = Cert.GcnSpec.hidden (n := 400) a s b := by
  funext j
  obtain ⟨r, c, rfl⟩ : ∃ (r : Fin 400) (c : Fin 64), j = ix2 r c := ⟨j 0, j 1, eq_ix2 j⟩
  rw [relu_row_apply, Cert.GcnSpec.hidden_apply, hz]

/-- The first pass's block: the first layer on a block of 400 rows of the adjacency matrix. -/
theorem pay2_eq (a : FVec Ideal S400x10000 .f32) (s : FVec Ideal S10000x64 .bf16) (b : FVec Ideal S1x64 .f32)
    (w2 : FVec Ideal S64x64 .f32) :
    Gen.k0_pay2 (F := Ideal) a s b w2 = Cert.GcnSpec.layer (n := 400) (p := 64) a s b w2 := by
  unfold Gen.k0_pay2
  simp only [truncf_eq, shapeCast_self, matmul_B, matmul_C]
  exact congrArg (fun h => Cert.GcnSpec.mm (n := 400) (k := 64) (p := 64) h w2) (relu_row_eq a s b _ _ rfl)

/-- The second pass's block: the second layer on a block of 400 rows, plus the last bias's one number. -/
theorem pay3_eq (a : FVec Ideal S400x10000 .f32) (s2 : FVec Ideal S10000x64 .f32) (b2 : FVec Ideal S1x64 .f32)
    (wl : FVec Ideal S64x1 .f32) (bl : FVec Ideal S1x1 .f32) :
    Gen.k1_pay1 (F := Ideal) a s2 b2 wl bl
      = fun y => FloatOps.addf (F := Ideal) (φ := .f32) (Cert.GcnSpec.layer (n := 400) (p := 1) a s2 b2 wl y)
          (bl (ix2 (0 : Fin 1) (0 : Fin 1))) := by
  unfold Gen.k1_pay1
  simp only [truncf_eq, shapeCast_self, matmul_B, matmul_E]
  funext j
  obtain ⟨r, c, rfl⟩ : ∃ (r : Fin 400) (c : Fin 1), j = ix2 r c := ⟨j 0, j 1, eq_ix2 j⟩
  obtain rfl : c = 0 := Subsingleton.elim _ _
  show FloatOps.addf (F := Ideal) (φ := .f32) (Cert.GcnSpec.mm (n := 400) (k := 64) (p := 1) _ wl (ix2 r 0))
    (broadcastTo S400x1 bl _ (ix2 r (0 : Fin 1))) = _
  rw [broadcastTo_1b_ab_apply, relu_row_eq a s2 b2 _ (FloatOps.ofBits (F := Ideal) .f32 0x00000000#32) rfl]
  rfl

end Cert.KernelIdeal.GcnValue

end
-- ==== Proof.KernelFinal.lean ====
/-
  From blocks to arrays, at the ideal values. Each pass writes back, at grid point `t`, a block of 400 rows of its
  result; that block is the layer computed on rows `400 t … 400 t + 399` of the adjacency matrix, which is the same
  rows of the layer computed on the whole matrix (a layer is computed row by row). The 25 blocks tile the result, so
  after the pass the result array is the layer of the whole arrays.
-/
import proofs.«105481_g71605694759081_cont_9to1_m_564_3_alg».proof.Proof.KernelValue
import proofs.«105481_g71605694759081_cont_9to1_m_564_3_alg».proof.Proof.PayloadValue
import Idealize.ShloMosaic.Lib.Pipeline.Value
import Idealize.ShloMosaic.Lib.ValueIdx

noncomputable section

open scoped BigOperators

namespace Cert.KernelIdeal.GcnValue

open Cert.KernelIdeal Cert.KernelIdeal.Gen Cert.KernelIdeal.Gcn Idealize.ShloMosaic Idealize.ShloMosaic.TcCoe Idealize.SL.Sem
  Idealize.ShloMosaic.ValueIdx
open Idealize.ShloMosaic.Pipeline (Dat)
open Cert.GcnSpec (mm hidden layer layer_rows)

-- the buffer contents when a region is entered
variable (V : (c : Dev nD) → (b : Ref sig .tc) → Buf (Elt Ideal) ((c : Thread nD τ).loc b))

/-! ## Region 0 -/

/-- The printed index maps, decided over the grid: the adjacency window and the result window move one block of 400
    rows per point; every other window stays at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 1's block is its whole array at every point. -/
theorem iblk0_1 (c : Dev nD) (t : Fin cfg0.N) : (iblk0 V c 1 t : S10000x128.Idx → EReal) = V c main_arg0 := by
  obtain ⟨e00, e01, e10, e11, e20, e21, e30, e31, e40, e41, e50, e51⟩ := idx_facts0 t
  funext y
  show V c main_arg0 (((cfg0.win 1).blk t).view.emb y) = V c main_arg0 y
  congr 1
  funext a; apply Fin.ext
  match a with
  | ⟨0, _⟩ => show win0_1.index t (0 : Fin 2) * 10000 + 1 * (y 0).val = (y 0).val; rw [e10]; omega
  | ⟨1, _⟩ => show win0_1.index t (1 : Fin 2) * 128 + 1 * (y 1).val = (y 1).val; rw [e11]; omega

/-- Window 2's block is its whole array at every point. -/
theorem iblk0_2 (c : Dev nD) (t : Fin cfg0.N) : (iblk0 V c 2 t : S128x64.Idx → EReal) = V c main_arg2 := by
  obtain ⟨e00, e01, e10, e11, e20, e21, e30, e31, e40, e41, e50, e51⟩ := idx_facts0 t
  funext y
  show V c main_arg2 (((cfg0.win 2).blk t).view.emb y) = V c main_arg2 y
  congr 1
  funext a; apply Fin.ext
  match a with
  | ⟨0, _⟩ => show win0_2.index t (0 : Fin 2) * 128 + 1 * (y 0).val = (y 0).val; rw [e20]; omega
  | ⟨1, _⟩ => show win0_2.index t (1 : Fin 2) * 64 + 1 * (y 1).val = (y 1).val; rw [e21]; omega

/-- Window 3's block is its whole array at every point. -/
theorem iblk0_3 (c : Dev nD) (t : Fin cfg0.N) : (iblk0 V c 3 t : S1x64.Idx → EReal) = V c main_v0 := by
  obtain ⟨e00, e01, e10, e11, e20, e21, e30, e31, e40, e41, e50, e51⟩ := idx_facts0 t
  funext y
  show V c main_v0 (((cfg0.win 3).blk t).view.emb y) = V c main_v0 y
  congr 1
  funext a; apply Fin.ext
  match a with
  | ⟨0, _⟩ => show win0_3.index t (0 : Fin 2) * 1 + 1 * (y 0).val = (y 0).val; rw [e30]; omega
  | ⟨1, _⟩ => show win0_3.index t (1 : Fin 2) * 64 + 1 * (y 1).val = (y 1).val; rw [e31]; omega

/-- Window 4's block is its whole array at every point. -/
theorem iblk0_4 (c : Dev nD) (t : Fin cfg0.N) : (iblk0 V c 4 t : S64x64.Idx → EReal) = V c main_arg4 := by
  obtain ⟨e00, e01, e10, e11, e20, e21, e30, e31, e40, e41, e50, e51⟩ := idx_facts0 t
  funext y
  show V c main_arg4 (((cfg0.win 4).blk t).view.emb y) = V c main_arg4 y
  congr 1
  funext a; apply Fin.ext
  match a with
  | ⟨0, _⟩ => show win0_4.index t (0 : Fin 2) * 64 + 1 * (y 0).val = (y 0).val; rw [e40]; omega
  | ⟨1, _⟩ => show win0_4.index t (1 : Fin 2) * 64 + 1 * (y 1).val = (y 1).val; rw [e41]; omega

/-- The adjacency window's block at point `t` is rows `400 t … 400 t + 399` of the adjacency matrix. -/
theorem iblk0_0 (c : Dev nD) (t : Fin cfg0.N) (r : Fin 400) (l : Fin 10000) :
    (iblk0 V c 0 t : S400x10000.Idx → EReal) (ix2 r l)
      = (V c main_arg1 : S10000x10000.Idx → EReal) (ix2 (⟨400 * t.val + r.val, by
          have hN : cfg0.N = 25 := N_0; have := t.isLt; have := r.isLt; omega⟩ : Fin 10000) l) := by
  obtain ⟨e00, e01, e10, e11, e20, e21, e30, e31, e40, e41, e50, e51⟩ := idx_facts0 t
  show V c main_arg1 (((cfg0.win 0).blk t).view.emb (ix2 r l)) = _
  congr 1
  funext a; apply Fin.ext
  match a with
  | ⟨0, _⟩ => show win0_0.index t (0 : Fin 2) * 400 + 1 * r.val = 400 * t.val + r.val; rw [e00]; omega
  | ⟨1, _⟩ => show win0_0.index t (1 : Fin 2) * 10000 + 1 * l.val = l.val; rw [e01]; omega

/-- An element of the result window's block at point `t` sits in the array at row `400 t + r`. -/
theorem emb0_5 (t : Fin cfg0.N) (r : Fin 400) (col : Fin 64) :
    ((cfg0.win 5).blk t).view.emb (ix2 r col)
      = (ix2 (⟨400 * t.val + r.val, by
          have hN : cfg0.N = 25 := N_0; have := t.isLt; have := r.isLt; omega⟩ : Fin 10000) col : S10000x64.Idx) := by
  obtain ⟨e00, e01, e10, e11, e20, e21, e30, e31, e40, e41, e50, e51⟩ := idx_facts0 t
  funext a; apply Fin.ext
  match a with
  | ⟨0, _⟩ => show win0_5.index t (0 : Fin 2) * 400 + 1 * r.val = 400 * t.val + r.val; rw [e50]; omega
  | ⟨1, _⟩ => show win0_5.index t (1 : Fin 2) * 64 + 1 * col.val = col.val; rw [e51]; omega

/-- An index of the array is in point `t`'s block iff each coordinate is in the block's range on its axis. -/
theorem mem_blk0_5 (t : Fin cfg0.N) (i : S10000x64.Idx) :
    i ∈ ((cfg0.win 5).blk t).view.set ↔ ∀ a : Fin 2, win0_5.index t a * S400x64.size a ≤ (i a).val ∧ (i a).val < win0_5.index t a * S400x64.size a + S400x64.size a := by
  show i ∈ ((View.whole main_v3).slice (win0_5.rect t)).set ↔ _
  rw [View.set_slice_whole, Rect.mem_set_unit]
  exact Iff.rfl

/-- Every row of the result lies in the block of the point `row / 400`. -/
theorem cover0_5 (i : S10000x64.Idx) :
    ∃ t : Fin cfg0.N, (cfg0.win 5).flush t = true ∧ i ∈ ((cfg0.win 5).blk t).view.set := by
  have hN : cfg0.N = 25 := N_0
  have hi0 : (i 0).val < 10000 := (i 0).isLt
  have hi1 : (i 1).val < 64 := (i 1).isLt
  obtain ⟨t, ht⟩ : ∃ t : Fin cfg0.N, t.val = (i 0).val / 400 := ⟨⟨(i 0).val / 400, by omega⟩, rfl⟩
  obtain ⟨e00, e01, e10, e11, e20, e21, e30, e31, e40, e41, e50, e51⟩ := idx_facts0 t
  refine ⟨t, flush0_5 t, ?_⟩
  rw [mem_blk0_5]
  intro a
  match a with
  | ⟨0, _⟩ => show win0_5.index t (0 : Fin 2) * 400 ≤ (i 0).val ∧ (i 0).val < win0_5.index t (0 : Fin 2) * 400 + 400; rw [e50]; omega
  | ⟨1, _⟩ => show win0_5.index t (1 : Fin 2) * 64 ≤ (i 1).val ∧ (i 1).val < win0_5.index t (1 : Fin 2) * 64 + 64; rw [e51]; omega

/-- What the first pass's result array ends holding: the first layer over the whole adjacency matrix. -/
abbrev G0 (c : Dev nD) : S10000x64.Idx → EReal :=
  layer (n := 10000) (p := 64) (V c main_arg1) (mm (n := 10000) (k := 128) (p := 64) (V c main_arg0) (V c main_arg2))
    (V c main_v0) (V c main_arg4)

/-- WHAT POINT `t` WRITES BACK is block `t` of `G0`. -/
theorem flushed0_eq (c : Dev nD) (t : Fin cfg0.N) :
    (dat0 V c).flushed 5 t = ((cfg0.win 5).blk t).view.read (Elt Ideal) (G0 V c) := by
  have hN : cfg0.N = 25 := N_0
  have htl := t.isLt
  show (cfg0.win 5).cut (grid0.coords t) ((dat0 V c).after 5 t) = _
  rw [after0_5, outAt_eq, scr_eq]
  rw [pay2_eq, pay1_eq, iblk0_1, iblk0_2, iblk0_3, iblk0_4]
  funext y
  obtain ⟨r, col, rfl⟩ : ∃ (r : Fin 400) (col : Fin 64), y = ix2 r col := ⟨y 0, y 1, eq_ix2 y⟩
  show layer (n := 400) (p := 64) (iblk0 V c 0 t) (mm (n := 10000) (k := 128) (p := 64) (V c main_arg0) (V c main_arg2)) (V c main_v0) (V c main_arg4) (ix2 r col)
    = G0 V c (((cfg0.win 5).blk t).view.emb (ix2 r col))
  rw [emb0_5]
  exact layer_rows (m := 400) (n := 10000) (p := 64) (400 * t.val) (by omega) _ _ _ _ _ (iblk0_0 V c t) r col

/-- THE FIRST PASS'S RESULT ARRAY after the region: the first layer of the whole arrays. -/
theorem final0 (c : Dev nD) : (dat0 V c).arrAt 5 cfg0.N = G0 V c :=
  (dat0 V c).arrAt_eq_of_cover 5 (G0 V c) (fun t _ => flushed0_eq V c t) cover0_5

/-! ## Region 1 -/

/-- The printed index maps, decided over the grid: the adjacency window and the result window move one block of 400
    rows per point; every other window stays at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 1's block is its whole array at every point. -/
theorem iblk1_1 (c : Dev nD) (t : Fin cfg1.N) : (iblk1 V c 1 t : S10000x64.Idx → EReal) = V c main_v3 := by
  obtain ⟨e00, e01, e10, e11, e20, e21, e30, e31, e40, e41, e50, e51⟩ := idx_facts1 t
  funext y
  show V c main_v3 (((cfg1.win 1).blk t).view.emb y) = V c main_v3 y
  congr 1
  funext a; apply Fin.ext
  match a with
  | ⟨0, _⟩ => show win1_1.index t (0 : Fin 2) * 10000 + 1 * (y 0).val = (y 0).val; rw [e10]; omega
  | ⟨1, _⟩ => show win1_1.index t (1 : Fin 2) * 64 + 1 * (y 1).val = (y 1).val; rw [e11]; omega

/-- Window 2's block is its whole array at every point. -/
theorem iblk1_2 (c : Dev nD) (t : Fin cfg1.N) : (iblk1 V c 2 t : S1x64.Idx → EReal) = V c main_v1 := by
  obtain ⟨e00, e01, e10, e11, e20, e21, e30, e31, e40, e41, e50, e51⟩ := idx_facts1 t
  funext y
  show V c main_v1 (((cfg1.win 2).blk t).view.emb y) = V c main_v1 y
  congr 1
  funext a; apply Fin.ext
  match a with
  | ⟨0, _⟩ => show win1_2.index t (0 : Fin 2) * 1 + 1 * (y 0).val = (y 0).val; rw [e20]; omega
  | ⟨1, _⟩ => show win1_2.index t (1 : Fin 2) * 64 + 1 * (y 1).val = (y 1).val; rw [e21]; omega

/-- Window 3's block is its whole array at every point. -/
theorem iblk1_3 (c : Dev nD) (t : Fin cfg1.N) : (iblk1 V c 3 t : S64x1.Idx → EReal) = V c main_arg6 := by
  obtain ⟨e00, e01, e10, e11, e20, e21, e30, e31, e40, e41, e50, e51⟩ := idx_facts1 t
  funext y
  show V c main_arg6 (((cfg1.win 3).blk t).view.emb y) = V c main_arg6 y
  congr 1
  funext a; apply Fin.ext
  match a with
  | ⟨0, _⟩ => show win1_3.index t (0 : Fin 2) * 64 + 1 * (y 0).val = (y 0).val; rw [e30]; omega
  | ⟨1, _⟩ => show win1_3.index t (1 : Fin 2) * 1 + 1 * (y 1).val = (y 1).val; rw [e31]; omega

/-- Window 4's block is its whole array at every point. -/
theorem iblk1_4 (c : Dev nD) (t : Fin cfg1.N) : (iblk1 V c 4 t : S1x1.Idx → EReal) = V c main_v2 := by
  obtain ⟨e00, e01, e10, e11, e20, e21, e30, e31, e40, e41, e50, e51⟩ := idx_facts1 t
  funext y
  show V c main_v2 (((cfg1.win 4).blk t).view.emb y) = V c main_v2 y
  congr 1
  funext a; apply Fin.ext
  match a with
  | ⟨0, _⟩ => show win1_4.index t (0 : Fin 2) * 1 + 1 * (y 0).val = (y 0).val; rw [e40]; omega
  | ⟨1, _⟩ => show win1_4.index t (1 : Fin 2) * 1 + 1 * (y 1).val = (y 1).val; rw [e41]; omega

/-- The adjacency window's block at point `t` is rows `400 t … 400 t + 399` of the adjacency matrix. -/
theorem iblk1_0 (c : Dev nD) (t : Fin cfg1.N) (r : Fin 400) (l : Fin 10000) :
    (iblk1 V c 0 t : S400x10000.Idx → EReal) (ix2 r l)
      = (V c main_arg1 : S10000x10000.Idx → EReal) (ix2 (⟨400 * t.val + r.val, by
          have hN : cfg1.N = 25 := N_1; have := t.isLt; have := r.isLt; omega⟩ : Fin 10000) l) := by
  obtain ⟨e00, e01, e10, e11, e20, e21, e30, e31, e40, e41, e50, e51⟩ := idx_facts1 t
  show V c main_arg1 (((cfg1.win 0).blk t).view.emb (ix2 r l)) = _
  congr 1
  funext a; apply Fin.ext
  match a with
  | ⟨0, _⟩ => show win1_0.index t (0 : Fin 2) * 400 + 1 * r.val = 400 * t.val + r.val; rw [e00]; omega
  | ⟨1, _⟩ => show win1_0.index t (1 : Fin 2) * 10000 + 1 * l.val = l.val; rw [e01]; omega

/-- An element of the result window's block at point `t` sits in the array at row `400 t + r`. -/
theorem emb1_5 (t : Fin cfg1.N) (r : Fin 400) (col : Fin 1) :
    ((cfg1.win 5).blk t).view.emb (ix2 r col)
      = (ix2 (⟨400 * t.val + r.val, by
          have hN : cfg1.N = 25 := N_1; have := t.isLt; have := r.isLt; omega⟩ : Fin 10000) col : S10000x1.Idx) := by
  obtain ⟨e00, e01, e10, e11, e20, e21, e30, e31, e40, e41, e50, e51⟩ := idx_facts1 t
  funext a; apply Fin.ext
  match a with
  | ⟨0, _⟩ => show win1_5.index t (0 : Fin 2) * 400 + 1 * r.val = 400 * t.val + r.val; rw [e50]; omega
  | ⟨1, _⟩ => show win1_5.index t (1 : Fin 2) * 1 + 1 * col.val = col.val; rw [e51]; omega

/-- An index of the array is in point `t`'s block iff each coordinate is in the block's range on its axis. -/
theorem mem_blk1_5 (t : Fin cfg1.N) (i : S10000x1.Idx) :
    i ∈ ((cfg1.win 5).blk t).view.set ↔ ∀ a : Fin 2, win1_5.index t a * S400x1.size a ≤ (i a).val ∧ (i a).val < win1_5.index t a * S400x1.size a + S400x1.size a := by
  show i ∈ ((View.whole main_v4).slice (win1_5.rect t)).set ↔ _
  rw [View.set_slice_whole, Rect.mem_set_unit]
  exact Iff.rfl

/-- Every row of the result lies in the block of the point `row / 400`. -/
theorem cover1_5 (i : S10000x1.Idx) :
    ∃ t : Fin cfg1.N, (cfg1.win 5).flush t = true ∧ i ∈ ((cfg1.win 5).blk t).view.set := by
  have hN : cfg1.N = 25 := N_1
  have hi0 : (i 0).val < 10000 := (i 0).isLt
  have hi1 : (i 1).val < 1 := (i 1).isLt
  obtain ⟨t, ht⟩ : ∃ t : Fin cfg1.N, t.val = (i 0).val / 400 := ⟨⟨(i 0).val / 400, by omega⟩, rfl⟩
  obtain ⟨e00, e01, e10, e11, e20, e21, e30, e31, e40, e41, e50, e51⟩ := idx_facts1 t
  refine ⟨t, flush1_5 t, ?_⟩
  rw [mem_blk1_5]
  intro a
  match a with
  | ⟨0, _⟩ => show win1_5.index t (0 : Fin 2) * 400 ≤ (i 0).val ∧ (i 0).val < win1_5.index t (0 : Fin 2) * 400 + 400; rw [e50]; omega
  | ⟨1, _⟩ => show win1_5.index t (1 : Fin 2) * 1 ≤ (i 1).val ∧ (i 1).val < win1_5.index t (1 : Fin 2) * 1 + 1; rw [e51]; omega

/-- What the second pass's result array ends holding: the second layer over the whole adjacency matrix, plus the
    last bias's one number. -/
abbrev G1 (c : Dev nD) : S10000x1.Idx → EReal := fun i =>
  FloatOps.addf (F := Ideal) (φ := .f32)
    (layer (n := 10000) (p := 1) (V c main_arg1) (V c main_v3) (V c main_v1) (V c main_arg6) i)
    (V c main_v2 (ix2 (0 : Fin 1) (0 : Fin 1)))

/-- WHAT POINT `t` WRITES BACK is block `t` of `G1`. -/
theorem flushed1_eq (c : Dev nD) (t : Fin cfg1.N) :
    (dat1 V c).flushed 5 t = ((cfg1.win 5).blk t).view.read (Elt Ideal) (G1 V c) := by
  have hN : cfg1.N = 25 := N_1
  have htl := t.isLt
  show (cfg1.win 5).cut (grid1.coords t) ((dat1 V c).after 5 t) = _
  rw [after1_5, outAt1_eq]
  rw [pay3_eq, iblk1_1, iblk1_2, iblk1_3, iblk1_4]
  funext y
  obtain ⟨r, col, rfl⟩ : ∃ (r : Fin 400) (col : Fin 1), y = ix2 r col := ⟨y 0, y 1, eq_ix2 y⟩
  show FloatOps.addf (F := Ideal) (φ := .f32)
      (layer (n := 400) (p := 1) (iblk1 V c 0 t) (V c main_v3) (V c main_v1) (V c main_arg6) (ix2 r col))
      (V c main_v2 (ix2 (0 : Fin 1) (0 : Fin 1)))
    = G1 V c (((cfg1.win 5).blk t).view.emb (ix2 r col))
  rw [emb1_5, layer_rows (m := 400) (n := 10000) (p := 1) (400 * t.val) (by omega) _ _ _ _ _ (iblk1_0 V c t) r col]

/-- THE SECOND PASS'S RESULT ARRAY after the region: the second layer of the whole arrays plus the last bias. -/
theorem final1 (c : Dev nD) : (dat1 V c).arrAt 5 cfg1.N = G1 V c :=
  (dat1 V c).arrAt_eq_of_cover 5 (G1 V c) (fun t _ => flushed1_eq V c t) cover1_5

end Cert.KernelIdeal.GcnValue

end
-- ==== Proof.KernelAssemble.lean ====
/-
  The idealized kernel's result as one function of its eight argument arrays.  The second pass's final array is the
  head layer of the adjacency matrix over the first pass's final array; the first pass's final array is the hidden
  layer over the feature product; the bias rows the passes read are the host's reshapes of the bias vectors, read
  index by index.  Folding the boundary contents back to the launch memory gives the network
      relu(adj · (relu(adj · (x · W1) + b1) · W2) + b2) · Wl + bl
  over the extended reals, every product a plain sum.
-/
import proofs.«105481_g71605694759081_cont_9to1_m_564_3_alg».proof.Proof.KernelFrame
import proofs.«105481_g71605694759081_cont_9to1_m_564_3_alg».proof.Proof.KernelFinal
import proofs.«105481_g71605694759081_cont_9to1_m_564_3_alg».proof.Proof.Spec
import Idealize.ShloMosaic.Lib.Pipeline.Value
import Idealize.ShloMosaic.Lib.StableHlo.Run

set_option maxRecDepth 16384

noncomputable section

namespace Cert.KernelIdeal.GcnValue

open Cert.KernelIdeal Cert.KernelIdeal.Gen Cert.KernelIdeal.Gcn Cert.GcnSpec
open Idealize.ShloMosaic Idealize.ShloMosaic.TcCoe Idealize.ShloMosaic.ValueIdx Idealize.ShloMosaic.StableHlo
open Idealize.SL Idealize.SL.Sem
open Idealize.ShloMosaic.Pipeline (Dat)

variable (m : (ℓ : Loc nD τ sig) → Buf (Elt Ideal) ℓ) (ρ : Dev nD → PrngReg)

/-! ## The reshaped bias vectors, read at an index -/

/-- The first bias as a [1,64] row: entry (0, k) is entry k of the vector. -/
theorem W1_main_v0 (c : Dev nD) : (W1 m c (Proc.devRef .tc main_v0) : S1x64.Idx → EReal) = row (m ((c : Thread nD τ).loc main_arg3)) := by
  have e : (W1 m c (Proc.devRef .tc main_v0) : S1x64.Idx → EReal) = shapeCast S1x64 (m ((c : Thread nD τ).loc main_arg3)) shapeCasts_S64_S1x64 := by
    show StableHlo.after hostOps0 (fun b => m (c, b)) (Proc.devRef .tc main_v0) = _
    after_results
    rfl
  rw [e]
  funext j
  refine (shapeCast_addUnit_apply (n := 1) ![64] (m ((c : Thread nD τ).loc main_arg3)) shapeCasts_S64_S1x64 j).trans ?_
  exact congrArg _ (funext fun a => by match a with | ⟨0, _⟩ => rfl)

/-- The second bias as a [1,64] row. -/
theorem W1_main_v1 (c : Dev nD) : (W1 m c (Proc.devRef .tc main_v1) : S1x64.Idx → EReal) = row (m ((c : Thread nD τ).loc main_arg5)) := by
  have e : (W1 m c (Proc.devRef .tc main_v1) : S1x64.Idx → EReal) = shapeCast S1x64 (m ((c : Thread nD τ).loc main_arg5)) shapeCasts_S64_S1x64 := by
    show StableHlo.after hostOps0 (fun b => m (c, b)) (Proc.devRef .tc main_v1) = _
    after_results
    rfl
  rw [e]
  funext j
  refine (shapeCast_addUnit_apply (n := 1) ![64] (m ((c : Thread nD τ).loc main_arg5)) shapeCasts_S64_S1x64 j).trans ?_
  exact congrArg _ (funext fun a => by match a with | ⟨0, _⟩ => rfl)

/-- The head's bias as a [1,1] array: its one entry is the vector's one entry. -/
theorem W1_main_v2 (c : Dev nD) : (W1 m c (Proc.devRef .tc main_v2) : S1x1.Idx → EReal) (ix2 (0 : Fin 1) (0 : Fin 1)) = (m ((c : Thread nD τ).loc main_arg7)) (ix1 (0 : Fin 1)) := by
  have e : (W1 m c (Proc.devRef .tc main_v2) : S1x1.Idx → EReal) = shapeCast S1x1 (m ((c : Thread nD τ).loc main_arg7)) shapeCasts_S1_S1x1 := by
    show StableHlo.after hostOps0 (fun b => m (c, b)) (Proc.devRef .tc main_v2) = _
    after_results
    rfl
  rw [e]
  refine (shapeCast_addUnit_apply (n := 1) ![1] (m ((c : Thread nD τ).loc main_arg7)) shapeCasts_S1_S1x1 _).trans ?_
  exact congrArg _ (funext fun a => by match a with | ⟨0, _⟩ => rfl)

/-! ## The boundary contents the two passes read, folded back to the launch memory -/

theorem V1_arg (c : Dev nD) (r : Ref sig .tc) (h : r ∉ hostOps0_W) : Gcn.V1 m c r = m ((c : Thread nD τ).loc r) := Gen.V1_of m c r h

/-- The first pass's final array: the hidden layer over the feature product, times the second weight matrix. -/
theorem V2_main_v3 (c : Dev nD) : (Gcn.V2 m c main_v3 : S10000x64.Idx → EReal)
    = layer (n := 10000) (p := 64) (m ((c : Thread nD τ).loc main_arg1)) (mm (n := 10000) (k := 128) (p := 64) (m ((c : Thread nD τ).loc main_arg0)) (m ((c : Thread nD τ).loc main_arg2))) (row (m ((c : Thread nD τ).loc main_arg3))) (m ((c : Thread nD τ).loc main_arg4)) := by
  rw [show Gcn.V2 m c main_v3 = (dat0 (Gcn.V1 m) c).arrAt 5 cfg0.N from W2_arr m c 5, final0 (Gcn.V1 m) c]
  unfold G0
  rw [V1_arg m c main_arg1 (by decide), V1_arg m c main_arg0 (by decide), V1_arg m c main_arg2 (by decide), V1_arg m c main_arg4 (by decide)]
  rw [show (Gcn.V1 m c main_v0 : S1x64.Idx → EReal) = row (m ((c : Thread nD τ).loc main_arg3)) from W1_main_v0 m c]

theorem V2_main_arg1 (c : Dev nD) : Gcn.V2 m c main_arg1 = (m ((c : Thread nD τ).loc main_arg1)) :=
  ((W2_arr m c 0).trans (((dat0 (Gcn.V1 m) c).arrAt_in 0 rfl _).trans (A_eq0 (Gcn.V1 m) c 0))).trans (Gen.V1_of m c main_arg1 (by decide))
theorem V2_main_arg6 (c : Dev nD) : Gcn.V2 m c main_arg6 = (m ((c : Thread nD τ).loc main_arg6)) :=
  (W2_of_ne m c main_arg6 (by decide)).trans (Gen.V1_of m c main_arg6 (by decide))
theorem V2_main_v1 (c : Dev nD) : (Gcn.V2 m c main_v1 : S1x64.Idx → EReal) = row (m ((c : Thread nD τ).loc main_arg5)) :=
  (W2_of_ne m c main_v1 (by decide)).trans (W1_main_v1 m c)
theorem V2_main_v2 (c : Dev nD) : (Gcn.V2 m c main_v2 : S1x1.Idx → EReal) (ix2 (0 : Fin 1) (0 : Fin 1)) = (m ((c : Thread nD τ).loc main_arg7)) (ix1 (0 : Fin 1)) :=
  (congrFun (W2_of_ne m c main_v2 (by decide)) _).trans (W1_main_v2 m c)

/-! ## The result -/

/-- The network's result on core `c`, as a function of the launch memory's argument arrays. -/
def gcnOut (c : Dev nD) : Buf (Elt Ideal) ((c : Thread nD τ).loc main_v4) :=
  fun i => FloatOps.addf (F := Ideal) (φ := .f32) (layer (n := 10000) (p := 1) (m ((c : Thread nD τ).loc main_arg1)) (layer (n := 10000) (p := 64) (m ((c : Thread nD τ).loc main_arg1)) (mm (n := 10000) (k := 128) (p := 64) (m ((c : Thread nD τ).loc main_arg0)) (m ((c : Thread nD τ).loc main_arg2))) (row (m ((c : Thread nD τ).loc main_arg3))) (m ((c : Thread nD τ).loc main_arg4))) (row (m ((c : Thread nD τ).loc main_arg5))) (m ((c : Thread nD τ).loc main_arg6)) i) ((m ((c : Thread nD τ).loc main_arg7)) (ix1 (0 : Fin 1)))

/-- The result array at the last boundary is the network's result. -/
theorem result_eq (c : Dev nD) : W3 m c (Proc.devRef .tc main_v4) = gcnOut m c := by
  rw [show W3 m c (Proc.devRef .tc main_v4) = (dat1 (Gcn.V2 m) c).arrAt 5 cfg1.N from W3_arr m c 5, final1 (Gcn.V2 m) c]
  unfold G1 gcnOut
  rw [V2_main_arg1, V2_main_arg6, V2_main_v1, V2_main_v3, V2_main_v2]
  rfl

/-- Every weakly fair execution of the idealized kernel's host program terminates, nothing faulting, with the
    result array at the network's result and every argument array as launched. -/
theorem run_value : θ_run defs (onTc (τ := τ) (main (F := Ideal))) ⟨m, fun _ => 0, ρ⟩ (fun r => ∀ c : Dev nD,
      r.2.mem ((c.tc : Thread nD τ).loc main_v4) = gcnOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v4 (by decide))).trans (result_eq m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c)⟩)
    (run_all m ρ)

end Cert.KernelIdeal.GcnValue

end
-- ==== Proof.RefSide.lean ====
/-
  The reference program's result stage, read as the mathematics of Spec: each `dot_general` is a matrix product, each
  bias a row added to every row, each rectified linear unit a maximum with zero; the stages nest exactly as two layers
  over `x · W₁`, and the last bias is one number added to every element.
-/
import proofs.«105481_g71605694759081_cont_9to1_m_564_3_alg».proof.Proof.Gen.ReferenceIdeal.Read
import proofs.«105481_g71605694759081_cont_9to1_m_564_3_alg».proof.Proof.Spec
import Idealize.ShloMosaic.Lib.ValueIdx
import Idealize.ShloMosaic.PureOps.Ideal.Laws

noncomputable section

open scoped BigOperators

namespace Cert.ReferenceIdeal.GcnValue

open Cert.ReferenceIdeal Cert.ReferenceIdeal.Gen Cert.ReferenceIdeal.Read Idealize.ShloMosaic Idealize.ShloMosaic.TcCoe
  Idealize.ShloMosaic.ValueIdx
open Cert.GcnSpec (mm hidden layer row zero32 mm_apply hidden_apply layer_apply row_apply)

/-! ## The operand indices of each product, by coordinates -/

theorem lidx0 (r : Fin 10000) (c : Fin 64) (l : Fin 128) : lidx_main_v0 (ix2 r c) l = ix2 r l :=
  funext fun a => by match a with | ⟨0, _⟩ => rfl | ⟨1, _⟩ => rfl
theorem ridx0 (r : Fin 10000) (c : Fin 64) (l : Fin 128) : ridx_main_v0 (ix2 r c) l = ix2 l c :=
  funext fun a => by match a with | ⟨0, _⟩ => rfl | ⟨1, _⟩ => rfl
theorem lidx1 (r : Fin 10000) (c : Fin 64) (l : Fin 10000) : lidx_main_v1 (ix2 r c) l = ix2 r l :=
  funext fun a => by match a with | ⟨0, _⟩ => rfl | ⟨1, _⟩ => rfl
theorem ridx1 (r : Fin 10000) (c : Fin 64) (l : Fin 10000) : ridx_main_v1 (ix2 r c) l = ix2 l c :=
  funext fun a => by match a with | ⟨0, _⟩ => rfl | ⟨1, _⟩ => rfl
theorem lidx6 (r : Fin 10000) (c : Fin 64) (l : Fin 64) : lidx_main_v6 (ix2 r c) l = ix2 r l :=
  funext fun a => by match a with | ⟨0, _⟩ => rfl | ⟨1, _⟩ => rfl
theorem ridx6 (r : Fin 10000) (c : Fin 64) (l : Fin 64) : ridx_main_v6 (ix2 r c) l = ix2 l c :=
  funext fun a => by match a with | ⟨0, _⟩ => rfl | ⟨1, _⟩ => rfl
theorem lidx7 (r : Fin 10000) (c : Fin 64) (l : Fin 10000) : lidx_main_v7 (ix2 r c) l = ix2 r l :=
  funext fun a => by match a with | ⟨0, _⟩ => rfl | ⟨1, _⟩ => rfl
theorem ridx7 (r : Fin 10000) (c : Fin 64) (l : Fin 10000) : ridx_main_v7 (ix2 r c) l = ix2 l c :=
  funext fun a => by match a with | ⟨0, _⟩ => rfl | ⟨1, _⟩ => rfl
theorem lidx12 (r : Fin 10000) (c : Fin 1) (l : Fin 64) : lidx_main_v12 (ix2 r c) l = ix2 r l :=
  funext fun a => by match a with | ⟨0, _⟩ => rfl | ⟨1, _⟩ => rfl
theorem ridx12 (r : Fin 10000) (c : Fin 1) (l : Fin 64) : ridx_main_v12 (ix2 r c) l = ix2 l c :=
  funext fun a => by match a with | ⟨0, _⟩ => rfl | ⟨1, _⟩ => rfl

/-- The first bias, broadcast twice, reads the vector at the column. -/
theorem bidx1 (r : Fin 10000) (c : Fin 64) : idx_main_v2 (idx_main_v3 (ix2 r c)) = ix1 c :=
  funext fun a => by match a with | ⟨0, _⟩ => rfl
/-- So does the second. -/
theorem bidx2 (r : Fin 10000) (c : Fin 64) : idx_main_v8 (idx_main_v9 (ix2 r c)) = ix1 c :=
  funext fun a => by match a with | ⟨0, _⟩ => rfl
/-- The last bias, broadcast twice, reads the one number. -/
theorem bidx3 (r : Fin 10000) (c : Fin 1) : idx_main_v13 (idx_main_v14 (ix2 r c)) = ix1 (0 : Fin 1) :=
  funext fun a => by match a with | ⟨0, _⟩ => rfl

/-! ## The stages -/

/-- `x · W₁`. -/
theorem v0_eq (x0 : (⟨S10000x128, .f32⟩ : BufTy).Contents (Elt Ideal)) (x2 : (⟨S128x64, .f32⟩ : BufTy).Contents (Elt Ideal)) :
    val_main_v0 (F := Ideal) x0 x2 = mm (n := 10000) (k := 128) (p := 64) x0 x2 := by
  funext j
  obtain ⟨r, c, rfl⟩ : ∃ (r : Fin 10000) (c : Fin 64), j = ix2 r c := ⟨j 0, j 1, eq_ix2 j⟩
  rw [val_main_v0_apply, mm_apply]
  refine Finset.sum_congr rfl fun l _ => ?_
  rw [lidx0, ridx0]

/-- `adj · (x · W₁)`. -/
theorem v1_eq (x0 : (⟨S10000x128, .f32⟩ : BufTy).Contents (Elt Ideal)) (x1 : (⟨S10000x10000, .f32⟩ : BufTy).Contents (Elt Ideal)) (x2 : (⟨S128x64, .f32⟩ : BufTy).Contents (Elt Ideal)) :
    val_main_v1 (F := Ideal) x0 x1 x2 = mm (n := 10000) (k := 10000) (p := 64) x1 (mm (n := 10000) (k := 128) (p := 64) x0 x2) := by
  funext j
  obtain ⟨r, c, rfl⟩ : ∃ (r : Fin 10000) (c : Fin 64), j = ix2 r c := ⟨j 0, j 1, eq_ix2 j⟩
  rw [val_main_v1_apply, v0_eq, mm_apply]
  refine Finset.sum_congr rfl fun l _ => ?_
  rw [lidx1, ridx1]

/-- The first hidden layer. -/
theorem v5_eq (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) :
    val_main_v5 (F := Ideal) x0 x1 x2 x3 = hidden (n := 10000) x1 (mm (n := 10000) (k := 128) (p := 64) x0 x2) (row x3) := by
  funext j
  obtain ⟨r, c, rfl⟩ : ∃ (r : Fin 10000) (c : Fin 64), j = ix2 r c := ⟨j 0, j 1, eq_ix2 j⟩
  rw [val_main_v5_apply, val_main_v4_apply, v1_eq, val_main_v3_apply, val_main_v2_apply, val_main_call0_v0_apply,
    val_main_call0_cst_apply, bidx1, hidden_apply]
  rfl

/-- The first layer: the hidden layer times `W₂`. -/
theorem v6_eq (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) :
    val_main_v6 (F := Ideal) x0 x1 x2 x3 x4
      = layer (n := 10000) (p := 64) x1 (mm (n := 10000) (k := 128) (p := 64) x0 x2) (row x3) x4 := by
  funext j
  obtain ⟨r, c, rfl⟩ : ∃ (r : Fin 10000) (c : Fin 64), j = ix2 r c := ⟨j 0, j 1, eq_ix2 j⟩
  rw [val_main_v6_apply, v5_eq, layer_apply]
  refine Finset.sum_congr rfl fun l _ => ?_
  rw [lidx6, ridx6]

/-- `adj` times the first layer. -/
theorem v7_eq (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) :
    val_main_v7 (F := Ideal) x0 x1 x2 x3 x4
      = mm (n := 10000) (k := 10000) (p := 64) x1 (layer (n := 10000) (p := 64) x1 (mm (n := 10000) (k := 128) (p := 64) x0 x2) (row x3) x4) := by
  funext j
  obtain ⟨r, c, rfl⟩ : ∃ (r : Fin 10000) (c : Fin 64), j = ix2 r c := ⟨j 0, j 1, eq_ix2 j⟩
  rw [val_main_v7_apply, v6_eq, mm_apply]
  refine Finset.sum_congr rfl fun l _ => ?_
  rw [lidx7, ridx7]

/-- The second hidden layer. -/
theorem v11_eq (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    val_main_v11 (F := Ideal) x0 x1 x2 x3 x4 x5
      = hidden (n := 10000) x1 (layer (n := 10000) (p := 64) x1 (mm (n := 10000) (k := 128) (p := 64) x0 x2) (row x3) x4) (row x5) := by
  funext j
  obtain ⟨r, c, rfl⟩ : ∃ (r : Fin 10000) (c : Fin 64), j = ix2 r c := ⟨j 0, j 1, eq_ix2 j⟩
  rw [val_main_v11_apply, val_main_v10_apply, v7_eq, val_main_v9_apply, val_main_v8_apply, val_main_call1_v0_apply,
    val_main_call1_cst_apply, bidx2, hidden_apply]
  rfl

/-- The second layer: the hidden layer times `Wₗ`. -/
theorem v12_eq (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) :
    val_main_v12 (F := Ideal) x0 x1 x2 x3 x4 x5 x6
      = layer (n := 10000) (p := 1) x1 (layer (n := 10000) (p := 64) x1 (mm (n := 10000) (k := 128) (p := 64) x0 x2) (row x3) x4) (row x5) x6 := by
  funext j
  obtain ⟨r, c, rfl⟩ : ∃ (r : Fin 10000) (c : Fin 1), j = ix2 r c := ⟨j 0, j 1, eq_ix2 j⟩
  rw [val_main_v12_apply, v11_eq, layer_apply]
  refine Finset.sum_congr rfl fun l _ => ?_
  rw [lidx12, ridx12]

/-- THE REFERENCE'S RESULT: two layers over `x · W₁`, plus the last bias's one number at every element. -/
theorem ref_eq (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) :
    val_main_v15 (F := Ideal) x0 x1 x2 x3 x4 x5 x6 x7
      = fun i => FloatOps.addf (F := Ideal) (φ := .f32)
          (layer (n := 10000) (p := 1) x1 (layer (n := 10000) (p := 64) x1 (mm (n := 10000) (k := 128) (p := 64) x0 x2) (row x3) x4) (row x5) x6 i)
          (x7 (ix1 (0 : Fin 1))) := by
  funext j
  obtain ⟨r, c, rfl⟩ : ∃ (r : Fin 10000) (c : Fin 1), j = ix2 r c := ⟨j 0, j 1, eq_ix2 j⟩
  rw [val_main_v15_apply, v12_eq, val_main_v14_apply, val_main_v13_apply, bidx3]

end Cert.ReferenceIdeal.GcnValue

end
-- ==== Proof.lean ====
/-
  The certificate of a two-pass Pallas kernel for a two-layer graph convolution over a dense adjacency matrix,
      out = relu(adj · (relu(adj · (x · W1) + b1) · W2) + b2) · Wl + bl,
  against its plain array-library reference.

  Frames.  The kernel's host program is three reshapes of the bias vectors and two pipelined regions of 25 grid
  points each.  Each region's body is run symbolically once per control case (the first pass computes the feature
  product x · W1 at its first point and keeps it in a scratch buffer that every later point reads), the scratch's
  contents are carried by the region's invariant, and the regions are chained over the buffer contents at each
  boundary.  The same argument holds at the word-level instance and at the ideal one.  The reference has no kernel:
  its frame is its run with the result dropped.

  Values.  At the ideal instance a change of float format is the identity and every matrix product is a plain sum
  over the contracted axis, so each pass's output block is the corresponding layer of the 400 adjacency rows it
  streams, the 25 blocks tile the result array, and the kernel's result is the network's formula index by index.
  The reference's stages compose to the same formula: the same sums in the same arrangement, so no distributivity
  and no finiteness of the inputs is used.
-/
import proofs.«105481_g71605694759081_cont_9to1_m_564_3_alg».proof.Defs
import proofs.«105481_g71605694759081_cont_9to1_m_564_3_alg».proof.Proof.Gen.Kernel
import proofs.«105481_g71605694759081_cont_9to1_m_564_3_alg».proof.Proof.Gen.KernelIdeal
import proofs.«105481_g71605694759081_cont_9to1_m_564_3_alg».proof.Proof.Gen.ReferenceIdeal
import proofs.«105481_g71605694759081_cont_9to1_m_564_3_alg».proof.Proof.Gen.Pre_finite_inputs
import proofs.«105481_g71605694759081_cont_9to1_m_564_3_alg».proof.Proof.Gen.ReferenceIdeal.Run
import proofs.«105481_g71605694759081_cont_9to1_m_564_3_alg».proof.Proof.Gen.ReferenceIdeal.Read
import proofs.«105481_g71605694759081_cont_9to1_m_564_3_alg».proof.Proof.KernelFrameW
import proofs.«105481_g71605694759081_cont_9to1_m_564_3_alg».proof.Proof.KernelFrame
import proofs.«105481_g71605694759081_cont_9to1_m_564_3_alg».proof.Proof.KernelAssemble
import proofs.«105481_g71605694759081_cont_9to1_m_564_3_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gcn.frame m ρ
theorem frame_kernelIdeal : Cert.frame_KernelIdeal := fun m ρ _ => Cert.KernelIdeal.Gcn.frame m ρ
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the network's formula of the (agreeing) argument arrays in their result. -/
theorem algebraic : Cert.algebraic_KernelIdeal_ReferenceIdeal := by
  intro m ρ m' ρ' _ hagree
  refine ⟨fun c => Cert.KernelIdeal.GcnValue.gcnOut m c, Cert.KernelIdeal.GcnValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.GcnValue.ref_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
